-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x768 : Shape := ⟨2, ![256, 768]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S131072x256 .f32) (main_arg1 : FVec F S256x768 .f32) (main_arg2 : FVec F S256x256 .f32) (main_arg3 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S131072x256 : Shape := ⟨2, ![131072, 256]⟩
abbrev S256x768 : Shape := ⟨2, ![256, 768]⟩
abbrev S256x256 : Shape := ⟨2, ![256, 256]⟩
abbrev S256 : Shape := ⟨1, ![256]⟩
abbrev S512x256 : Shape := ⟨2, ![512, 256]⟩
abbrev S512x768 : Shape := ⟨2, ![512, 768]⟩
abbrev S128x256 : Shape := ⟨2, ![128, 256]⟩
abbrev S128x32 : Shape := ⟨2, ![128, 32]⟩
abbrev S32x32 : Shape := ⟨2, ![32, 32]⟩
abbrev S32 : Shape := ⟨1, ![32]⟩
abbrev S1x32 : Shape := ⟨2, ![1, 32]⟩
abbrev S128 : Shape := ⟨1, ![128]⟩
abbrev S128x1 : Shape := ⟨2, ![128, 1]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S256x768, .f32⟩
  | .hbm, ⟨2, _⟩ => ⟨S256x256, .f32⟩
  | .hbm, ⟨3, _⟩ => ⟨S256, .f32⟩
  | .hbm, ⟨4, _⟩ => ⟨S131072x256, .f32⟩
  | .local _ .vmem, ⟨0, _⟩ => ⟨S512x256, .f32⟩
  | .local _ .vmem, ⟨1, _⟩ => ⟨S512x256, .f32⟩
  | .local _ .vmem, ⟨2, _⟩ => ⟨S256x768, .f32⟩
  | .local _ .vmem, ⟨3, _⟩ => ⟨S256x256, .f32⟩
  | .local _ .vmem, ⟨4, _⟩ => ⟨S256, .f32⟩
  | .local _ .vmem, ⟨5, _⟩ => ⟨S512x256, .f32⟩
  | .local _ .vmem, ⟨6, _⟩ => ⟨S512x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  slices_S512x768_o0_0_S512x256 : S512x768.Slices ![0, 0] S512x256
  slices_S512x768_o0_256_S512x256 : S512x768.Slices ![0, 256] S512x256
  slices_S512x768_o0_512_S512x256 : S512x768.Slices ![0, 512] S512x256
  slices_S512x256_o0_0_S128x256 : S512x256.Slices ![0, 0] S128x256
  slices_S128x256_o0_0_S128x32 : S128x256.Slices ![0, 0] S128x32
  reduces_S128x32_S32 : S128x32.Reduces [0] S32
  shapeCasts_S32_S1x32 : S32.ShapeCasts S1x32
  broadcasts_S1x32_S128x32 : S1x32.Broadcasts S128x32
  reduces_S128x32_S128 : S128x32.Reduces [1] S128
  shapeCasts_S128_S128x1 : S128.ShapeCasts S128x1
  broadcasts_S128x1_S128x32 : S128x1.Broadcasts S128x32
  slices_S128x256_o0_32_S128x32 : S128x256.Slices ![0, 32] S128x32
  slices_S128x256_o0_64_S128x32 : S128x256.Slices ![0, 64] S128x32
  slices_S128x256_o0_96_S128x32 : S128x256.Slices ![0, 96] S128x32
  slices_S128x256_o0_128_S128x32 : S128x256.Slices ![0, 128] S128x32
  slices_S128x256_o0_160_S128x32 : S128x256.Slices ![0, 160] S128x32
  slices_S128x256_o0_192_S128x32 : S128x256.Slices ![0, 192] S128x32
  slices_S128x256_o0_224_S128x32 : S128x256.Slices ![0, 224] S128x32
  concatenates_S128x32_S128x32_S128x32_S128x32_S128x32_S128x32_S128x32_S128x32_S128x256_d1 : Shape.Concatenates [S128x32, S128x32, S128x32, S128x32, S128x32, S128x32, S128x32, S128x32] S128x256 1
  slices_S512x256_o128_0_S128x256 : S512x256.Slices ![128, 0] S128x256
  slices_S512x256_o256_0_S128x256 : S512x256.Slices ![256, 0] S128x256
  slices_S512x256_o384_0_S128x256 : S512x256.Slices ![384, 0] S128x256
  concatenates_S128x256_S128x256_S128x256_S128x256_S512x256_d0 : Shape.Concatenates [S128x256, S128x256, S128x256, S128x256] S512x256 0
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  dot_S512x256_S256x768_S512x768_1_0_0_1_n_n_wf : DotDims.WF S512x256 S256x768 S512x768 [1] [0] [0] [1] [] []
  dot_S128x32_S128x32_S32x32_0_0_1_1_n_n_wf : DotDims.WF S128x32 S128x32 S32x32 [0] [0] [1] [1] [] []
  dot_S128x32_S32x32_S128x32_1_0_0_1_n_n_wf : DotDims.WF S128x32 S32x32 S128x32 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .f32 = 32 ∨ (Rect.block (s := S131072x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S131072x256.size a
  hwx0_4 : ∀ i : grid0.Coords, EltTy.bits .f32 = 32 ∨ (Rect.block (s := S131072x256) S512x256.size (cc0_transform_4 i) (hinb0_4 i)).WholeWords (EltTy.packing .f32)

variable [Facts₀]

def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S128x32_S128x32_S32x32_0_0_1_1_n_n : DotDims S128x32 S128x32 S32x32 where
  lhsContracting := [0]
  rhsContracting := [0]
  lhsNonContracting := [1]
  rhsNonContracting := [1]
  lhsBatch := []
  rhsBatch := []
  wf := dot_S128x32_S128x32_S32x32_0_0_1_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x768 : Shape := ⟨2, ![256, 768]⟩
abbrev S256x256 : Shape := ⟨2, ![256, 256]⟩
abbrev S256 : Shape := ⟨1, ![256]⟩
abbrev S131072x768 : Shape := ⟨2, ![131072, 768]⟩
abbrev S131072x3x256 : Shape := ⟨3, ![131072, 3, 256]⟩
abbrev S131072x1x256 : Shape := ⟨3, ![131072, 1, 256]⟩
abbrev S1024x128x8x32 : Shape := ⟨4, ![1024, 128, 8, 32]⟩
abbrev S1024x8x128x32 : Shape := ⟨4, ![1024, 8, 128, 32]⟩
abbrev S8192x128x32 : Shape := ⟨3, ![8192, 128, 32]⟩
abbrev S_ : Shape := ⟨0, ![]⟩
abbrev S8192x32x32 : Shape := ⟨3, ![8192, 32, 32]⟩
abbrev S8192x32 : Shape := ⟨2, ![8192, 32]⟩
abbrev S8192x1x32 : Shape := ⟨3, ![8192, 1, 32]⟩
abbrev S8192x128 : Shape := ⟨2, ![8192, 128]⟩
abbrev S8192x128x1 : Shape := ⟨3, ![8192, 128, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x768, .f32⟩
  | .hbm, ⟨2, _⟩ => ⟨S256x256, .f32⟩
  | .hbm, ⟨3, _⟩ => ⟨S256, .f32⟩
  | .hbm, ⟨4, _⟩ => ⟨S131072x768, .f32⟩
  | .hbm, ⟨5, _⟩ => ⟨S131072x3x256, .f32⟩
  | .hbm, ⟨6, _⟩ => ⟨S131072x1x256, .f32⟩
  | .hbm, ⟨7, _⟩ => ⟨S131072x256, .f32⟩
  | .hbm, ⟨8, _⟩ => ⟨S131072x1x256, .f32⟩
  | .hbm, ⟨9, _⟩ => ⟨S131072x256, .f32⟩
  | .hbm, ⟨10, _⟩ => ⟨S131072x1x256, .f32⟩
  | .hbm, ⟨11, _⟩ => ⟨S131072x256, .f32⟩
  | .hbm, ⟨12, _⟩ => ⟨S1024x128x8x32, .f32⟩
  | .hbm, ⟨13, _⟩ => ⟨S1024x8x128x32, .f32⟩
  | .hbm, ⟨14, _⟩ => ⟨S8192x128x32, .f32⟩
  | .hbm, ⟨15, _⟩ => ⟨S_, .f32⟩
  | .hbm, ⟨16, _⟩ => ⟨S8192x128x32, .f32⟩
  | .hbm, ⟨17, _⟩ => ⟨S8192x128x32, .f32⟩
  | .hbm, ⟨18, _⟩ => ⟨S1024x128x8x32, .f32⟩
  | .hbm, ⟨19, _⟩ => ⟨S1024x8x128x32, .f32⟩
  | .hbm, ⟨20, _⟩ => ⟨S8192x128x32, .f32⟩
  | .hbm, ⟨21, _⟩ => ⟨S_, .f32⟩
  | .hbm, ⟨22, _⟩ => ⟨S8192x128x32, .f32⟩
  | .hbm, ⟨23, _⟩ => ⟨S8192x128x32, .f32⟩
  | .hbm, ⟨24, _⟩ => ⟨S1024x128x8x32, .f32⟩
  | .hbm, ⟨25, _⟩ => ⟨S1024x8x128x32, .f32⟩
  | .hbm, ⟨26, _⟩ => ⟨S8192x128x32, .f32⟩
  | .hbm, ⟨27, _⟩ => ⟨S8192x32x32, .f32⟩
  | .hbm, ⟨28, _⟩ => ⟨S_, .f32⟩
  | .hbm, ⟨29, _⟩ => ⟨S8192x32, .f32⟩
  | .hbm, ⟨30, _⟩ => ⟨S8192x1x32, .f32⟩
  | .hbm, ⟨31, _⟩ => ⟨S8192x128x32, .f32⟩
  | .hbm, ⟨32, _⟩ => ⟨S8192x128x32, .f32⟩
  | .hbm, ⟨33, _⟩ => ⟨S8192x128x32, .f32⟩
  | .hbm, ⟨34, _⟩ => ⟨S_, .f32⟩
  | .hbm, ⟨35, _⟩ => ⟨S8192x128, .f32⟩
  | .hbm, ⟨36, _⟩ => ⟨S8192x128x1, .f32⟩
  | .hbm, ⟨37, _⟩ => ⟨S_, .f32⟩
  | .hbm, ⟨38, _⟩ => ⟨S8192x128x1, .f32⟩
  | .hbm, ⟨39, _⟩ => ⟨S8192x128x1, .f32⟩
  | .hbm, ⟨40, _⟩ => ⟨S8192x128x32, .f32⟩
  | .hbm, ⟨41, _⟩ => ⟨S8192x128x32, .f32⟩
  | .hbm, ⟨42, _⟩ => ⟨S1024x8x128x32, .f32⟩
  | .hbm, ⟨43, _⟩ => ⟨S1024x128x8x32, .f32⟩
  | .hbm, ⟨44, _⟩ => ⟨S131072x256, .f32⟩
  | .hbm, ⟨45, _⟩ => ⟨S131072x256, .f32⟩
  | .hbm, ⟨46, _⟩ => ⟨S1x256, .f32⟩
  | .hbm, ⟨47, _⟩ => ⟨S131072x256, .f32⟩
  | .hbm, ⟨48, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call1_cst : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  shapeCasts_S131072x768_S131072x3x256 : S131072x768.ShapeCasts S131072x3x256
  slices_S131072x3x256_S131072x1x256_0_0_0 : S131072x3x256.Slices ![0, 0, 0] S131072x1x256
  shapeCasts_S131072x1x256_S131072x256 : S131072x1x256.ShapeCasts S131072x256
  slices_S131072x3x256_S131072x1x256_0_1_0 : S131072x3x256.Slices ![0, 1, 0] S131072x1x256
  slices_S131072x3x256_S131072x1x256_0_2_0 : S131072x3x256.Slices ![0, 2, 0] S131072x1x256
  shapeCasts_S131072x256_S1024x128x8x32 : S131072x256.ShapeCasts S1024x128x8x32
  transposes_S1024x128x8x32_S1024x8x128x32_0_2_1_3 : S1024x128x8x32.Transposes [0, 2, 1, 3] S1024x8x128x32
  shapeCasts_S1024x8x128x32_S8192x128x32 : S1024x8x128x32.ShapeCasts S8192x128x32
  bcast_S_S8192x128x32 : S_.BroadcastsInDim S8192x128x32 (![] : Fin 0 → Fin S8192x128x32.rank)
  reducesTo_S8192x128x32_S8192x32_d1 : S8192x128x32.ReducesTo [1] S8192x32
  h_S_ : 0 < S_.numel
  bcast_S8192x32_S8192x1x32_0_2 : S8192x32.BroadcastsInDim S8192x1x32 (![0, 2] : Fin 2 → Fin S8192x1x32.rank)
  bcast_S8192x1x32_S8192x128x32_0_1_2 : S8192x1x32.BroadcastsInDim S8192x128x32 (![0, 1, 2] : Fin 3 → Fin S8192x128x32.rank)
  reducesTo_S8192x128x32_S8192x128_d2 : S8192x128x32.ReducesTo [2] S8192x128
  bcast_S8192x128_S8192x128x1_0_1 : S8192x128.BroadcastsInDim S8192x128x1 (![0, 1] : Fin 2 → Fin S8192x128x1.rank)
  bcast_S_S8192x128x1 : S_.BroadcastsInDim S8192x128x1 (![] : Fin 0 → Fin S8192x128x1.rank)
  bcast_S8192x128x1_S8192x128x32_0_1_2 : S8192x128x1.BroadcastsInDim S8192x128x32 (![0, 1, 2] : Fin 3 → Fin S8192x128x32.rank)
  shapeCasts_S8192x128x32_S1024x8x128x32 : S8192x128x32.ShapeCasts S1024x8x128x32
  transposes_S1024x8x128x32_S1024x128x8x32_0_2_1_3 : S1024x8x128x32.Transposes [0, 2, 1, 3] S1024x128x8x32
  shapeCasts_S1024x128x8x32_S131072x256 : S1024x128x8x32.ShapeCasts S131072x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x256_S256x768_S131072x768_1_0_0_1_n_n_wf : DotDims.WF S131072x256 S256x768 S131072x768 [1] [0] [0] [1] [] []
  dot_S8192x128x32_S8192x128x32_S8192x32x32_1_1_2_2_0_0_wf : DotDims.WF S8192x128x32 S8192x128x32 S8192x32x32 [1] [1] [2] [2] [0] [0]
  dot_S8192x128x32_S8192x32x32_S8192x128x32_2_1_1_2_0_0_wf : DotDims.WF S8192x128x32 S8192x32x32 S8192x128x32 [2] [1] [1] [2] [0] [0]
  dot_S131072x256_S256x256_S131072x256_1_0_0_1_n_n_wf : DotDims.WF S131072x256 S256x256 S131072x256 [1] [0] [0] [1] [] []

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S8192x128x32_S8192x128x32_S8192x32x32_1_1_2_2_0_0 : DotDims S8192x128x32 S8192x128x32 S8192x32x32 where
  lhsContracting := [1]
  rhsContracting := [1]
  lhsNonContracting := [2]
  rhsNonContracting := [2]
  lhsBatch := [0]
  rhsBatch := [0]
  wf := dot_S8192x128x32_S8192x128x32_S8192x32x32_1_1_2_2_0_0_wf
def dot_S8192x128x32_S8192x32x32_S8192x128x32_2_1_1_2_0_0 : DotDims S8192x128x32 S8192x32x32 S8192x128x32 where
  lhsContracting := [2]
  rhsContracting := [1]
  lhsNonContracting := [1]
  rhsNonContracting := [2]
  lhsBatch := [0]
  rhsBatch := [0]
  wf := dot_S8192x128x32_S8192x32x32_S8192x128x32_2_1_1_2_0_0_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.LinAttnSpec.lean ====
/-
  The function both programs compute, written once on the extended reals.

  The 131072 rows of `x` fall into 1024 groups of 128 consecutive rows. Each row is sent through the fused
  projection `x · qkv_w` (256 → 768 channels); the first 256 projected channels, rectified, are the queries, the
  next 256, rectified, the keys, and the last 256 the values. Each third is cut into 8 heads of 32 channels.
  Inside one group and one head the kernel is the linear attention

      y(j, d) = (∑_c q(j, c) · ∑_j' k(j', c) · v(j', d)) / (∑_c (∑_j' k(j', c)) · q(j, c) + ε),

  `j, j'` over the group's 128 rows and `c, d` over the head's 32 channels. The heads' results are laid side by side
  again (channel `32 h + d`), and the row goes through the output projection `y · proj_w + proj_b`.

  A result row therefore depends on the 128 rows of its own group only: `outRow` below takes exactly those rows. The
  whole-array function `G` reads the group of row `r` as the rows `128 ⌊r / 128⌋ + j`.
-/
import Idealize.ShloMosaic.PureOps.Ideal
import Idealize.ShloMosaic.Lib.ValueIdx

noncomputable section

namespace Cert.LinAttn

open Idealize.ShloMosaic Idealize.ShloMosaic.ValueIdx

/-- The stabiliser `ε` added to the normaliser: the binary32 word of `1e-3`, one and the same word in both programs, so
    its value is never needed. -/
def eps : EReal := Ideal.ofBits .f32 0x3A83126F#32

/-- Channel `c` of head `h` in the query third of the 768 projected channels. -/
def chanQ (h : Fin 8) (c : Fin 32) : Fin 768 := ⟨32 * h.val + c.val, by omega⟩
/-- Channel `c` of head `h` in the key third. -/
def chanK (h : Fin 8) (c : Fin 32) : Fin 768 := ⟨256 + (32 * h.val + c.val), by omega⟩
/-- Channel `c` of head `h` in the value third. -/
def chanV (h : Fin 8) (c : Fin 32) : Fin 768 := ⟨512 + (32 * h.val + c.val), by omega⟩

/-- The head a merged channel `k = 32 h + d` belongs to. -/
def headOf (k : Fin 256) : Fin 8 := ⟨k.val / 32, by omega⟩
/-- Its channel inside that head. -/
def laneOf (k : Fin 256) : Fin 32 := ⟨k.val % 32, by omega⟩

/-- Row `r` of `x` against column `c` of the fused projection. -/
def proj {ρ : Type} (x : ρ → Fin 256 → EReal) (w : Fin 256 → Fin 768 → EReal) (r : ρ) (c : Fin 768) : EReal :=
  ∑ k : Fin 256, x r k * w k c

/-- Linear attention of one head over one group: queries, keys and values as 128 × 32 tables. -/
def headVal (q k v : Fin 128 → Fin 32 → EReal) (j : Fin 128) (d : Fin 32) : EReal :=
  Ideal.div (∑ c : Fin 32, q j c * ∑ j' : Fin 128, k j' c * v j' d)
    ((∑ c : Fin 32, (∑ j' : Fin 128, k j' c) * q j c) + eps)

/-- Head `h` of the group whose 128 rows are `x`: rectified queries and keys, plain values. -/
def attn (x : Fin 128 → Fin 256 → EReal) (w : Fin 256 → Fin 768 → EReal) (h : Fin 8) (j : Fin 128) (d : Fin 32) : EReal :=
  headVal (fun j c => max (proj x w j (chanQ h c)) 0) (fun j c => max (proj x w j (chanK h c)) 0)
    (fun j c => proj x w j (chanV h c)) j d

/-- Row `j` of a group's result: the heads laid side by side, through the output projection, plus the bias. -/
def outRow (x : Fin 128 → Fin 256 → EReal) (w : Fin 256 → Fin 768 → EReal) (pw : Fin 256 → Fin 256 → EReal)
    (b : Fin 256 → EReal) (j : Fin 128) (q : Fin 256) : EReal :=
  (∑ k : Fin 256, attn x w (headOf k) j (laneOf k) * pw k q) + b q

/-- Row `j` of the group that holds row `r`, for an array of `A` rows with `128 ∣ A`. -/
def groupRow {A : Nat} (hA : 128 ∣ A) (r : Fin A) (j : Fin 128) : Fin A :=
  ⟨128 * (r.val / 128) + j.val, by
    obtain ⟨n, rfl⟩ := hA
    have := r.isLt; have := j.isLt
    have h1 : r.val / 128 < n := by omega
    omega⟩

/-- The place of row `r` inside its group. -/
def inGroup {A : Nat} (r : Fin A) : Fin 128 := ⟨r.val % 128, by omega⟩

/-- The result over an array of `A` rows (`A = 131072` for the whole arrays, `A = 512` for one block of the kernel's
    grid), index by index. -/
def G {A : Nat} (hA : 128 ∣ A) (X : (⟨2, ![A, 256]⟩ : Shape).Idx → EReal) (W : (⟨2, ![256, 768]⟩ : Shape).Idx → EReal)
    (PW : (⟨2, ![256, 256]⟩ : Shape).Idx → EReal) (B : (⟨1, ![256]⟩ : Shape).Idx → EReal) :
    (⟨2, ![A, 256]⟩ : Shape).Idx → EReal := fun i =>
  outRow (fun j k => X (ix2 (groupRow hA (i 0) j) k)) (fun k c => W (ix2 k c)) (fun k q => PW (ix2 k q))
    (fun q => B (ix1 q)) (inGroup (i 0)) (i 1)

theorem dvd_whole : 128 ∣ 131072 := ⟨1024, by norm_num⟩
theorem dvd_block : 128 ∣ 512 := ⟨4, by norm_num⟩

end Cert.LinAttn

end
-- ==== Proof.KerValue.lean ====
/-
  From blocks to the whole array.

  The kernel's grid has 256 points; point `t` stages rows `512 t … 512 t + 511` of `x`, the whole of the two weight
  matrices and of the bias, and writes back rows `512 t … 512 t + 511` of the result. A block of 512 rows is four
  whole groups of 128, and a result row depends on the rows of its own group only, so the result computed over the
  block alone is the whole-array result read at the block's rows (`G_block_eq`). The 256 blocks tile the array, so
  after the run the array holds the whole-array function everywhere.

  The per-block statement — what the body leaves in the output buffer is the specification over the block — is taken
  here as a hypothesis `hout`; the module that opens the body proves it.
-/
import proofs.«164440_j56075093017288_1_alg».proof.Proof.Gen.KernelIdeal.Value
import proofs.«164440_j56075093017288_1_alg».proof.Proof.LinAttnSpec
import Idealize.ShloMosaic.Lib.Pipeline.Value
import Idealize.ShloMosaic.Lib.ValueIdx

noncomputable section

namespace Cert.LinAttn.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The result over block `T` alone (rows `512 T + p` of `X`, the weights whole) is the whole-array result at the
    block's rows: `128 ⌊(512 T + p) / 128⌋ = 512 T + 128 ⌊p / 128⌋` and `(512 T + p) mod 128 = p mod 128`. -/
theorem G_block_eq (X : S131072x256.Idx → EReal) (W : S256x768.Idx → EReal) (PW : S256x256.Idx → EReal) (B : S256.Idx → EReal)
    (x0 : S512x256.Idx → EReal) (w0 : S256x768.Idx → EReal) (pw0 : S256x256.Idx → EReal) (b0 : S256.Idx → EReal)
    (T : ℕ) (hT : T < 256)
    (hx : ∀ (p : Fin 512) (k : Fin 256), x0 (ix2 p k) = X (ix2 (⟨512 * T + p.val, by omega⟩ : Fin 131072) k))
    (hw : ∀ y, w0 y = W y) (hpw : ∀ y, pw0 y = PW y) (hb : ∀ y, b0 y = B y)
    (j : S512x256.Idx) (i : S131072x256.Idx) (hi0 : (i 0).val = 512 * T + (j 0).val) (hi1 : (i 1).val = (j 1).val) :
    Cert.LinAttn.G Cert.LinAttn.dvd_block x0 w0 pw0 b0 j = Cert.LinAttn.G Cert.LinAttn.dvd_whole X W PW B i := by
  obtain rfl : w0 = W := funext hw
  obtain rfl : pw0 = PW := funext hpw
  obtain rfl : b0 = B := funext hb
  obtain ⟨p, q, rfl⟩ : ∃ (p : Fin 512) (q : Fin 256), j = ix2 p q := ⟨j 0, j 1, eq_ix2 j⟩
  obtain ⟨r, q', rfl⟩ : ∃ (r : Fin 131072) (q' : Fin 256), i = ix2 r q' := ⟨i 0, i 1, eq_ix2 i⟩
  have hr : r.val = 512 * T + p.val := hi0
  obtain rfl : q' = q := Fin.ext hi1
  show Cert.LinAttn.outRow (fun j' k => x0 (ix2 (Cert.LinAttn.groupRow Cert.LinAttn.dvd_block p j') k)) _ _ _ (Cert.LinAttn.inGroup p) q'
    = Cert.LinAttn.outRow (fun j' k => X (ix2 (Cert.LinAttn.groupRow Cert.LinAttn.dvd_whole r j') k)) _ _ _ (Cert.LinAttn.inGroup r) q'
  have hrow : (fun (j' : Fin 128) (k : Fin 256) => x0 (ix2 (Cert.LinAttn.groupRow Cert.LinAttn.dvd_block p j') k))
      = fun j' k => X (ix2 (Cert.LinAttn.groupRow Cert.LinAttn.dvd_whole r j') k) := by
    funext j' k
    rw [hx]
    refine congrArg (fun a => X (ix2 a k)) (Fin.ext ?_)
    show 512 * T + (128 * (p.val / 128) + j'.val) = 128 * (r.val / 128) + j'.val
    omega
  have hin : Cert.LinAttn.inGroup p = Cert.LinAttn.inGroup r := Fin.ext (by
    show p.val % 128 = r.val % 128
    omega)
  rw [hrow, hin]

variable (m : (ℓ : Loc nD τ sig) → Buf (Elt Ideal) ℓ) (ρ : Dev nD → PrngReg)

/-- The printed index maps, decided over the 256 points: the blocks of `x` and of the result move with the point
    along the rows; the weights and the bias are staged whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The whole-array result of the argument arrays as the region finds them. -/
abbrev whole (c : Dev nD) : S131072x256.Idx → EReal :=
  Cert.LinAttn.G Cert.LinAttn.dvd_whole (V m c main_arg0) (V m c main_arg1) (V m c main_arg2) (V m c main_arg3)

/-- What point `t` writes back is block `t` of the whole-array result. -/
theorem flushed_eq
    (hout : ∀ (x0 : Vec Ideal S512x256 .f32) (x1 : Vec Ideal S256x768 .f32) (x2 : Vec Ideal S256x256 .f32) (x3 : Vec Ideal S256 .f32),
      out0_4 (F := Ideal) x0 x1 x2 x3 = Cert.LinAttn.G Cert.LinAttn.dvd_block x0 x1 x2 x3)
    (c : Dev nD) (t : Fin cfg0.N) :
    (dats m 0 c).flushed 4 t = ((cfg0.win 4).blk t).view.read (Elt Ideal) (whole m c) := by
  rw [Cert.KernelIdeal.Value.flushed4, hout (iblk m c 0 t) (iblk m c 1 t) (iblk m c 2 t) (iblk m c 3 t)]
  obtain ⟨e00, e01, e10, e11, e20, e21, e30, e40, e41⟩ := idx_facts t
  have ht : t.val < 256 := by have := t.isLt; have hN : grid0.N = 256 := N_0; exact hN ▸ this
  funext j
  show Cert.LinAttn.G Cert.LinAttn.dvd_block (iblk m c 0 t) (iblk m c 1 t) (iblk m c 2 t) (iblk m c 3 t) j
    = whole m c (((cfg0.win 4).blk t).view.emb j)
  refine G_block_eq (V m c main_arg0) (V m c main_arg1) (V m c main_arg2) (V m c main_arg3)
    (iblk m c 0 t) (iblk m c 1 t) (iblk m c 2 t) (iblk m c 3 t) t.val ht ?_ ?_ ?_ ?_ j _ ?_ ?_
  · intro p k
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = 512 * t.val + p.val; omega
    | ⟨1, _⟩ => show win0_0.index t (1 : Fin 2) * 256 + 1 * k.val = k.val; omega
  · intro y
    show V m c main_arg1 (((cfg0.win 1).blk t).view.emb y) = _
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 768 + 1 * (y 1).val = (y 1).val; omega
  · intro y
    show V m c main_arg2 (((cfg0.win 2).blk t).view.emb y) = _
    refine congrArg (V m c main_arg2) (funext fun a => Fin.ext ?_)
    match a with
    | ⟨0, _⟩ => show win0_2.index t (0 : Fin 2) * 256 + 1 * (y 0).val = (y 0).val; omega
    | ⟨1, _⟩ => show win0_2.index t (1 : Fin 2) * 256 + 1 * (y 1).val = (y 1).val; omega
  · intro y
    show V m c main_arg3 (((cfg0.win 3).blk t).view.emb y) = _
    refine congrArg (V m c main_arg3) (funext fun a => Fin.ext ?_)
    match a with
    | ⟨0, _⟩ => show win0_3.index t (0 : Fin 1) * 256 + 1 * (y 0).val = (y 0).val; omega
  · show win0_4.index t (0 : Fin 2) * 512 + 1 * (j 0).val = 512 * t.val + (j 0).val; omega
  · show win0_4.index t (1 : Fin 2) * 256 + 1 * (j 1).val = (j 1).val; omega

/-- An index of the array is in point `t`'s block iff each coordinate is in the block's range on its axis. -/
theorem mem_blk (t : Fin cfg0.N) (i : S131072x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0).slice (win0_4.rect t)).set ↔ _
  rw [View.set_slice_whole, Rect.mem_set_unit]
  exact Iff.rfl

/-- Row `r` lies in the block of point `⌊r / 512⌋`: the 256 blocks tile the array. -/
theorem cover (i : S131072x256.Idx) : ∃ t : Fin cfg0.N, (cfg0.win 4).flush t = true ∧ i ∈ ((cfg0.win 4).blk t).view.set := by
  have hi0 : (i 0).val < 131072 := (i 0).isLt
  have hi1 : (i 1).val < 256 := (i 1).isLt
  have hN : grid0.N = 256 := N_0
  let t : Fin cfg0.N := ⟨(i 0).val / 512, by show (i 0).val / 512 < grid0.N; omega⟩
  obtain ⟨e00, e01, e10, e11, e20, e21, e30, e40, e41⟩ := idx_facts t
  have htv : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- After the run the result array holds the whole-array function of the argument arrays. -/
theorem final
    (hout : ∀ (x0 : Vec Ideal S512x256 .f32) (x1 : Vec Ideal S256x768 .f32) (x2 : Vec Ideal S256x256 .f32) (x3 : Vec Ideal S256 .f32),
      out0_4 (F := Ideal) x0 x1 x2 x3 = Cert.LinAttn.G Cert.LinAttn.dvd_block x0 x1 x2 x3)
    (c : Dev nD) : (dats m 0 c).arrAt 4 cfg0.N = whole m c :=
  (dats m 0 c).arrAt_eq_of_cover 4 (whole m c) (fun t _ => flushed_eq m hout c t) cover

/-- The kernel's run with the result array named: every weakly fair execution terminates without a fault, the result
    array at the whole-array function of the arguments as launched, the arguments unchanged. -/
theorem run
    (hout : ∀ (x0 : Vec Ideal S512x256 .f32) (x1 : Vec Ideal S256x768 .f32) (x2 : Vec Ideal S256x256 .f32) (x3 : Vec Ideal S256 .f32),
      out0_4 (F := Ideal) x0 x1 x2 x3 = Cert.LinAttn.G Cert.LinAttn.dvd_block x0 x1 x2 x3) :
    θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hout c), (h c).2⟩) (Cert.KernelIdeal.Value.run_blocks m ρ)

end Cert.LinAttn.Blocks

end
-- ==== Proof.HeadTerm.lean ====
/-
  The arithmetic the kernel body does for ONE group and ONE head, as a function of the three 128 × 32 pieces
  (queries, keys, values) it cuts out of the rectified projection: `kv = kᵀ v` (a product contracting the rows),
  the column sums `s` of the keys, `q · kv`, the normaliser `∑_c s(c) q(·, c) + ε` kept as a column, and the
  quotient. The body repeats exactly this term thirty-two times, once per group and head of a block.
-/
import proofs.«164440_j56075093017288_1_alg».proof.Proof.Gen.KernelIdeal

noncomputable section

namespace Cert.LinAttn.Ker

open Idealize.ShloMosaic Cert.KernelIdeal Cert.KernelIdeal.Facts₀

variable {F : FTy → Type} [FloatOps F]

/-- One head of one group: `(q · (kᵀ v)) / (rowsum(colsum(k) ⊙ q) + ε)`, operation by operation as the body spells it. -/
def headTerm (qs ks vs : FVec F S128x32 .f32) : FVec F S128x32 .f32 :=
  have czero : FVec F S32x32 .f32 := constant S32x32 .f32 0x00000000#32
  have kv : FVec F S32x32 .f32 := matmul dot_S128x32_S128x32_S32x32_0_0_1_1_n_n none ks vs czero
  have s : FVec F S32 .f32 := multiReduction .add [0] S32 ks 0x00000000#32 reduces_S128x32_S32 (.inl rfl) rfl
  have srow : FVec F S1x32 .f32 := shapeCast S1x32 s shapeCasts_S32_S1x32
  have czero' : FVec F S128x32 .f32 := constant S128x32 .f32 0x00000000#32
  have y : FVec F S128x32 .f32 := matmul dot_S128x32_S32x32_S128x32_1_0_0_1_n_n none qs kv czero'
  have sall : FVec F S128x32 .f32 := broadcastTo S128x32 srow broadcasts_S1x32_S128x32
  have sq : FVec F S128x32 .f32 := mulf sall qs
  have z : FVec F S128 .f32 := multiReduction .add [1] S128 sq 0x00000000#32 reduces_S128x32_S128 (.inl rfl) rfl
  have zcol : FVec F S128x1 .f32 := shapeCast S128x1 z shapeCasts_S128_S128x1
  have ceps : F .f32 := Scalar.ofBits .f32 0x3A83126F#32
  have epscol : FVec F S128x1 .f32 := broadcast S128x1 ceps
  have zeps : FVec F S128x1 .f32 := addf zcol epscol
  have zall : FVec F S128x32 .f32 := broadcastTo S128x32 zeps broadcasts_S128x1_S128x32
  divf y zall

end Cert.LinAttn.Ker

end
-- ==== Proof.KerBodyNF.lean ====
/-
  The structure of the body: what one grid point leaves in its 512 × 256 output block.

  The body forms `x · qkv_w` for its 512 rows at once, rectifies the query and key thirds, and then, for each of the
  4 groups of 128 rows and each of the 8 heads of 32 channels, cuts the group's rows and the head's columns out of the
  three tables, applies the per-head term, lays the 8 heads of a group side by side, stacks the 4 groups, and applies
  the output projection. Here that is written once, over a group index `g` and a head index `h`: the piece of a table
  for (g, h) is rows `128 g + j`, columns `32 h + c`. The 32 unrolled copies in the body are this one term at the
  32 literal pairs (g, h), by unfolding.
-/
import proofs.«164440_j56075093017288_1_alg».proof.Proof.HeadTerm
import proofs.«164440_j56075093017288_1_alg».proof.Proof.Gen.KernelIdeal.Frame
import Idealize.ShloMosaic.Lib.Pipeline.Value

noncomputable section

namespace Cert.LinAttn.Ker

open Idealize.ShloMosaic Cert.KernelIdeal Cert.KernelIdeal.Gen

variable {F : FTy → Type} [FloatOps F]

/-- Rows `128 g … 128 g + 127` of a 512-row table are inside it. -/
theorem slices_rows (g : Fin 4) : S512x256.Slices ![128 * g.val, 0] S128x256 :=
  ⟨rfl, fun a => by
    have := g.isLt
    match a with
    | ⟨0, _⟩ => show 128 * g.val + 128 ≤ 512; omega
    | ⟨1, _⟩ => show 0 + 256 ≤ 256; omega⟩

/-- Columns `32 h … 32 h + 31` of a 256-column table are inside it. -/
theorem slices_cols (h : Fin 8) : S128x256.Slices ![0, 32 * h.val] S128x32 :=
  ⟨rfl, fun a => by
    have := h.isLt
    match a with
    | ⟨0, _⟩ => show 0 + 128 ≤ 128; omega
    | ⟨1, _⟩ => show 32 * h.val + 32 ≤ 256; omega⟩

/-- The 128 × 32 piece of a 512 × 256 table that belongs to group `g` and head `h`: rows `128 g + j`, columns
    `32 h + c`. The body cuts the rows first and the columns second. -/
def piece (M : FVec F S512x256 .f32) (g : Fin 4) (h : Fin 8) : FVec F S128x32 .f32 :=
  extractStridedSlice S128x32 ![0, 32 * h.val] (extractStridedSlice S128x256 ![128 * g.val, 0] M (slices_rows g)) (slices_cols h)

/-- Head `h` of group `g`: the per-head term of the three pieces of the query, key and value tables. -/
def head (Q K V : FVec F S512x256 .f32) (g : Fin 4) (h : Fin 8) : FVec F S128x32 .f32 :=
  headTerm (piece Q g h) (piece K g h) (piece V g h)

/-- The eight heads of a group, as the list the concatenation along the columns takes. -/
def headList (Q K V : FVec F S512x256 .f32) (g : Fin 4) : List ((s : Shape) × (s.Idx → F .f32)) :=
  List.ofFn fun h : Fin 8 => (⟨S128x32, head Q K V g h⟩ : (s : Shape) × (s.Idx → F .f32))

/-- Group `g`: its eight heads side by side, head `h` in columns `32 h … 32 h + 31`. -/
def group (Q K V : FVec F S512x256 .f32) (g : Fin 4) : FVec F S128x256 .f32 :=
  concatenate S128x256 1 (headList Q K V g)
    concatenates_S128x32_S128x32_S128x32_S128x32_S128x32_S128x32_S128x32_S128x32_S128x256_d1

/-- The four groups of a block, as the list the concatenation along the rows takes. -/
def groupList (Q K V : FVec F S512x256 .f32) : List ((s : Shape) × (s.Idx → F .f32)) :=
  List.ofFn fun g : Fin 4 => (⟨S128x256, group Q K V g⟩ : (s : Shape) × (s.Idx → F .f32))

/-- The attention result of a whole block: group `g` in rows `128 g … 128 g + 127`. -/
def blockY (Q K V : FVec F S512x256 .f32) : FVec F S512x256 .f32 :=
  concatenate S512x256 0 (groupList Q K V) concatenates_S128x256_S128x256_S128x256_S128x256_S512x256_d0

/-- The output projection of a block: `y · w + b`, the bias row laid over all rows. -/
def outProj (Y : FVec F S512x256 .f32) (W : Vec F S256x256 .f32) (B : Vec F S256 .f32) : FVec F S512x256 .f32 :=
  addf
    (matmul dot_S512x256_S256x256_S512x256_1_0_0_1_n_n none (truncf .bf16 Y bitsLt_bf16_f32) (truncf .bf16 W bitsLt_bf16_f32)
      (constant S512x256 .f32 0x00000000#32))
    (broadcastTo S512x256 (shapeCast S1x256 B shapeCasts_S256_S1x256) broadcasts_S1x256_S512x256)

section Groups
variable (v0 : Vec F S512x256 .f32) (v2 : Vec F S256x768 .f32) (Q K V : FVec F S512x256 .f32)

/-- The first group's payload: its heads are cut from the three tables through their first 128 rows. -/
theorem group0_eq :
    k0_pay31 (k0_pay9 v0 v2) (k0_pay15 (k0_pay12 v0 v2) (k0_pay13 v0 v2) (k0_pay14 (F := F)))
      (k0_pay16 (k0_pay6 v0 v2) (k0_pay7 v0 v2) (k0_pay8 v0 v2)) (k0_pay17 (k0_pay6 v0 v2) (k0_pay7 v0 v2) (k0_pay8 v0 v2))
      (k0_pay23 (k0_pay20 (k0_pay6 v0 v2) (k0_pay7 v0 v2) (k0_pay8 v0 v2)) (k0_pay21 (k0_pay6 v0 v2) (k0_pay7 v0 v2)) (k0_pay22 (F := F)))
      (k0_pay24 (k0_pay6 v0 v2) (k0_pay7 v0 v2) (k0_pay8 v0 v2)) (k0_pay25 (k0_pay6 v0 v2) (k0_pay7 v0 v2) (k0_pay8 v0 v2))
      (k0_pay28 (k0_pay6 v0 v2) (k0_pay7 v0 v2) (k0_pay8 v0 v2)) (k0_pay29 (k0_pay6 v0 v2) (k0_pay7 v0 v2)) (k0_pay30 (F := F))
      = group (k0_pay3 v0 v2) (k0_pay4 v0 v2) (k0_pay5 v0 v2) 0 := rfl

/-- The second group's payload. -/
theorem group1_eq :
    k0_pay48 (k0_pay32 Q) (k0_pay33 K) (k0_pay34 V) (k0_pay35 Q K V) (k0_pay36 Q K V)
      (k0_pay41 (k0_pay39 Q K V) (k0_pay40 Q K)) (k0_pay42 (k0_pay32 Q) (k0_pay33 K) (k0_pay34 V))
      (k0_pay43 (k0_pay32 Q) (k0_pay33 K) (k0_pay34 V)) (k0_pay46 (k0_pay32 Q) (k0_pay33 K) (k0_pay34 V))
      (k0_pay47 (k0_pay32 Q) (k0_pay33 K))
      = group Q K V 1 := rfl

/-- The third group's payload. -/
theorem group2_eq :
    k0_pay70 (k0_pay49 Q) (k0_pay50 K) (k0_pay51 V)
      (k0_pay56 (k0_pay52 Q) (k0_pay54 K V) (k0_pay55 K) (constant S128x32 .f32 0x00000000#32))
      (k0_pay57 (k0_pay49 Q) (k0_pay50 K) (k0_pay51 V)) (k0_pay58 (k0_pay49 Q) (k0_pay50 K) (k0_pay51 V))
      (k0_pay63 (k0_pay59 (k0_pay49 Q)) (k0_pay61 (k0_pay50 K) (k0_pay51 V)) (k0_pay62 (k0_pay50 K)) (constant S128x32 .f32 0x00000000#32))
      (k0_pay64 (k0_pay49 Q) (k0_pay50 K) (k0_pay51 V)) (k0_pay65 (k0_pay49 Q) (k0_pay50 K) (k0_pay51 V))
      (k0_pay66 (k0_pay49 Q)) (k0_pay68 (k0_pay50 K) (k0_pay51 V)) (k0_pay69 (k0_pay50 K)) (constant S128x32 .f32 0x00000000#32)
      = group Q K V 2 := rfl

/-- The last payload: the fourth group's heads, the four groups stacked, and the output projection. -/
theorem store_eq (G0 G1 G2 : FVec F S128x256 .f32) (W : Vec F S256x256 .f32) (B : Vec F S256 .f32) :
    k0_pay1 G0 G1 G2 (k0_pay74 Q K V) (k0_pay78 (k0_pay75 Q) (k0_pay76 K) (k0_pay77 K V))
      (k0_pay79 (k0_pay71 Q) (k0_pay72 K) (k0_pay73 V)) (k0_pay80 (k0_pay71 Q) (k0_pay72 K) (k0_pay73 V))
      (k0_pay84 (k0_pay81 (k0_pay71 Q)) (k0_pay82 (k0_pay72 K)) (k0_pay83 (k0_pay72 K) (k0_pay73 V)))
      (k0_pay85 (k0_pay71 Q) (k0_pay72 K) (k0_pay73 V)) (k0_pay86 (k0_pay71 Q) (k0_pay72 K) (k0_pay73 V))
      (k0_pay87 (k0_pay71 Q)) (k0_pay88 (k0_pay72 K)) (k0_pay89 (k0_pay72 K) (k0_pay73 V)) W B
      = outProj (concatenate S512x256 0 [⟨S128x256, G0⟩, ⟨S128x256, G1⟩, ⟨S128x256, G2⟩, ⟨S128x256, group Q K V 3⟩]
          concatenates_S128x256_S128x256_S128x256_S128x256_S512x256_d0) W B := rfl

end Groups

theorem hz2 : (![0, 0] : Fin 2 → Nat) = fun _ => 0 := funext fun a => by fin_cases a <;> rfl
theorem hz1 : (![0] : Fin 1 → Nat) = fun _ => 0 := funext fun a => by fin_cases a; rfl

/-- What the body leaves in the output block: the output projection of the block's attention result, the three tables
    being the rectified query and key thirds and the value third of `x · qkv_w`. -/
theorem out_nf (x0 : Vec F S512x256 .f32) (x1 : Vec F S256x768 .f32) (x2 : Vec F S256x256 .f32) (x3 : Vec F S256 .f32) :
    out0_4 x0 x1 x2 x3 = outProj (blockY (k0_pay3 x0 x1) (k0_pay4 x0 x1) (k0_pay5 x0 x1)) x2 x3 := by
  unfold out0_4
  rw [View.canon_unit_zero hz2]
  simp only [View.ld_unit_zero (S := S512x256) hz2, View.ld_unit_zero (S := S256x768) hz2,
    View.ld_unit_zero (S := S256x256) hz2, View.ld_unit_zero (S := S256) hz1]
  rw [group0_eq, group1_eq, group2_eq, store_eq]
  rfl

end Cert.LinAttn.Ker
end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.HeadRead.lean ====
/-
  One head of one group, read at an index.

  With `q, k, v` the three 128 × 32 pieces, the body's term `headTerm q k v` at row `j`, channel `d` is

      (∑_c q(j, c) · ∑_j' k(j', c) · v(j', d)) / (∑_c (∑_j' k(j', c)) · q(j, c) + ε):

  `kᵀ v` is a product that contracts the ROWS of both operands, so its entry (c, d) is the sum over the group's rows;
  the keys' column sums are a reduction along the rows, replicated down the rows before the product with `q`; the
  normaliser is a reduction along the channels, kept as a column and replicated along the channels before the quotient.
  Both products run into a zero accumulator and both reductions start from zero, so no zero term is left in the sums.
-/
import proofs.«164440_j56075093017288_1_alg».proof.Proof.HeadTerm
import proofs.«164440_j56075093017288_1_alg».proof.Proof.LinAttnSpec
import proofs.«164440_j56075093017288_1_alg».proof.Proof.LibLayoutColumn
import Idealize.ShloMosaic.Lib.ValueIdx
import Idealize.ShloMosaic.Lib.ValueLayout
import Idealize.ShloMosaic.Lib.Pipeline.Value
import Idealize.ShloMosaic.PureOps.Ideal.Laws

noncomputable section

namespace Cert.LinAttn.Ker

open Idealize.ShloMosaic Idealize.ShloMosaic.ValueIdx Cert.KernelIdeal Cert.KernelIdeal.Facts₀

/-! ### The two small products' operand indices, axis by axis -/

theorem kv_lhs0 (i : S32x32.Idx) (q : (dot_S128x32_S128x32_S32x32_0_0_1_1_n_n).contr.Idx) :
    ((dot_S128x32_S128x32_S32x32_0_0_1_1_n_n).lhsIdx i q 0).val = (q ⟨0, by decide⟩).val :=
  (dot_S128x32_S128x32_S32x32_0_0_1_1_n_n).lhsIdx_val_of_single rfl i q
theorem kv_lhs1 (i : S32x32.Idx) (q : (dot_S128x32_S128x32_S32x32_0_0_1_1_n_n).contr.Idx) :
    ((dot_S128x32_S128x32_S32x32_0_0_1_1_n_n).lhsIdx i q 1).val = (i 0).val := by
  unfold DotDims.lhsIdx
  rw [dif_neg (show ¬(1 : Fin S128x32.rank) ∈ (dot_S128x32_S128x32_S32x32_0_0_1_1_n_n).lhsBatch by decide),
    dif_pos (show (1 : Fin S128x32.rank) ∈ (dot_S128x32_S128x32_S32x32_0_0_1_1_n_n).lhsNonContracting by decide)]
  rfl
theorem kv_rhs0 (i : S32x32.Idx) (q : (dot_S128x32_S128x32_S32x32_0_0_1_1_n_n).contr.Idx) :
    ((dot_S128x32_S128x32_S32x32_0_0_1_1_n_n).rhsIdx i q 0).val = (q ⟨0, by decide⟩).val :=
  (dot_S128x32_S128x32_S32x32_0_0_1_1_n_n).rhsIdx_val_of_single rfl i q
theorem kv_rhs1 (i : S32x32.Idx) (q : (dot_S128x32_S128x32_S32x32_0_0_1_1_n_n).contr.Idx) :
    ((dot_S128x32_S128x32_S32x32_0_0_1_1_n_n).rhsIdx i q 1).val = (i 1).val := by
  unfold DotDims.rhsIdx
  rw [dif_neg (show ¬(1 : Fin S128x32.rank) ∈ (dot_S128x32_S128x32_S32x32_0_0_1_1_n_n).rhsBatch by decide),
    dif_pos (show (1 : Fin S128x32.rank) ∈ (dot_S128x32_S128x32_S32x32_0_0_1_1_n_n).rhsNonContracting by decide)]
  rfl

theorem qm_lhs0 (i : S128x32.Idx) (q : (dot_S128x32_S32x32_S128x32_1_0_0_1_n_n).contr.Idx) :
    ((dot_S128x32_S32x32_S128x32_1_0_0_1_n_n).lhsIdx i q 0).val = (i 0).val := by
  unfold DotDims.lhsIdx
  rw [dif_neg (show ¬(0 : Fin S128x32.rank) ∈ (dot_S128x32_S32x32_S128x32_1_0_0_1_n_n).lhsBatch by decide),
    dif_pos (show (0 : Fin S128x32.rank) ∈ (dot_S128x32_S32x32_S128x32_1_0_0_1_n_n).lhsNonContracting by decide)]
  rfl
theorem qm_lhs1 (i : S128x32.Idx) (q : (dot_S128x32_S32x32_S128x32_1_0_0_1_n_n).contr.Idx) :
    ((dot_S128x32_S32x32_S128x32_1_0_0_1_n_n).lhsIdx i q 1).val = (q ⟨0, by decide⟩).val :=
  (dot_S128x32_S32x32_S128x32_1_0_0_1_n_n).lhsIdx_val_of_single rfl i q
theorem qm_rhs0 (i : S128x32.Idx) (q : (dot_S128x32_S32x32_S128x32_1_0_0_1_n_n).contr.Idx) :
    ((dot_S128x32_S32x32_S128x32_1_0_0_1_n_n).rhsIdx i q 0).val = (q ⟨0, by decide⟩).val :=
  (dot_S128x32_S32x32_S128x32_1_0_0_1_n_n).rhsIdx_val_of_single rfl i q
theorem qm_rhs1 (i : S128x32.Idx) (q : (dot_S128x32_S32x32_S128x32_1_0_0_1_n_n).contr.Idx) :
    ((dot_S128x32_S32x32_S128x32_1_0_0_1_n_n).rhsIdx i q 1).val = (i 1).val := by
  unfold DotDims.rhsIdx
  rw [dif_neg (show ¬(1 : Fin S32x32.rank) ∈ (dot_S128x32_S32x32_S128x32_1_0_0_1_n_n).rhsBatch by decide),
    dif_pos (show (1 : Fin S32x32.rank) ∈ (dot_S128x32_S32x32_S128x32_1_0_0_1_n_n).rhsNonContracting by decide)]
  rfl

/-- `kᵀ v` at (c, d): the sum over the 128 rows of `k(j, c) · v(j, d)`. -/
theorem kv_apply (ks vs : FVec Ideal S128x32 .f32) (c d : Fin 32) :
    matmul dot_S128x32_S128x32_S32x32_0_0_1_1_n_n none ks vs (constant S32x32 .f32 0x00000000#32) (ix2 c d)
      = ∑ j : Fin 128, ks (ix2 j c) * vs (ix2 j d) := by
  simp only [matmul]
  rw [Ideal.matmul_constant_zero_apply, ← Equiv.sum_comp (contrEquiv1 dot_S128x32_S128x32_S32x32_0_0_1_1_n_n 128 rfl rfl).symm]
  refine Finset.sum_congr rfl fun k _ => ?_
  have hk := contrEquiv1_symm_val dot_S128x32_S128x32_S32x32_0_0_1_1_n_n 128 rfl rfl k
  have el : dot_S128x32_S128x32_S32x32_0_0_1_1_n_n.lhsIdx (ix2 c d) ((contrEquiv1 dot_S128x32_S128x32_S32x32_0_0_1_1_n_n 128 rfl rfl).symm k) = ix2 k c :=
    funext fun a => Fin.ext (by
      match a with
      | ⟨0, _⟩ => exact (kv_lhs0 _ _).trans hk
      | ⟨1, _⟩ => exact kv_lhs1 _ _)
  have er : dot_S128x32_S128x32_S32x32_0_0_1_1_n_n.rhsIdx (ix2 c d) ((contrEquiv1 dot_S128x32_S128x32_S32x32_0_0_1_1_n_n 128 rfl rfl).symm k) = ix2 k d :=
    funext fun a => Fin.ext (by
      match a with
      | ⟨0, _⟩ => exact (kv_rhs0 _ _).trans hk
      | ⟨1, _⟩ => exact kv_rhs1 _ _)
  rw [el, er]

/-- `q · m` at (j, d) for a 32 × 32 matrix `m`: the sum over the head's channels of `q(j, c) · m(c, d)`. -/
theorem qm_apply (qs : FVec Ideal S128x32 .f32) (mm : FVec Ideal S32x32 .f32) (j : Fin 128) (d : Fin 32) :
    matmul dot_S128x32_S32x32_S128x32_1_0_0_1_n_n none qs mm (constant S128x32 .f32 0x00000000#32) (ix2 j d)
      = ∑ c : Fin 32, qs (ix2 j c) * mm (ix2 c d) := by
  simp only [matmul]
  rw [Ideal.matmul_constant_zero_apply, ← Equiv.sum_comp (contrEquiv1 dot_S128x32_S32x32_S128x32_1_0_0_1_n_n 32 rfl rfl).symm]
  refine Finset.sum_congr rfl fun k _ => ?_
  have hk := contrEquiv1_symm_val dot_S128x32_S32x32_S128x32_1_0_0_1_n_n 32 rfl rfl k
  have el : dot_S128x32_S32x32_S128x32_1_0_0_1_n_n.lhsIdx (ix2 j d) ((contrEquiv1 dot_S128x32_S32x32_S128x32_1_0_0_1_n_n 32 rfl rfl).symm k) = ix2 j k :=
    funext fun a => Fin.ext (by
      match a with
      | ⟨0, _⟩ => exact qm_lhs0 _ _
      | ⟨1, _⟩ => exact (qm_lhs1 _ _).trans hk)
  have er : dot_S128x32_S32x32_S128x32_1_0_0_1_n_n.rhsIdx (ix2 j d) ((contrEquiv1 dot_S128x32_S32x32_S128x32_1_0_0_1_n_n 32 rfl rfl).symm k) = ix2 k d :=
    funext fun a => Fin.ext (by
      match a with
      | ⟨0, _⟩ => exact (qm_rhs0 _ _).trans hk
      | ⟨1, _⟩ => exact qm_rhs1 _ _)
  rw [el, er]

/-- The keys' column sums: entry `c` is the sum of column `c` over the 128 rows. -/
theorem colsum_apply (ks : FVec Ideal S128x32 .f32) (hφ : FKind.Formats .f32) (hacc : (0x00000000#32 : BitVec 32) = 0x00000000#32)
    (c : Fin 32) :
    multiReduction .add [0] S32 ks 0x00000000#32 reduces_S128x32_S32 hφ hacc (ix1 c) = ∑ j : Fin 128, ks (ix2 j c) := by
  refine (Ideal.multiReduction_add_single ks 0x00000000#32 reduces_S128x32_S32 hφ hacc (ix1 c)).trans ?_
  refine Finset.sum_congr rfl fun k _ => congrArg ks ?_
  funext a
  apply Fin.ext
  match a with
  | ⟨0, _⟩ => rfl
  | ⟨1, _⟩ => rfl

/-- A row sum: entry `j` is the sum of row `j` over the 32 channels. -/
theorem rowsum_apply (sq : FVec Ideal S128x32 .f32) (hφ : FKind.Formats .f32) (hacc : (0x00000000#32 : BitVec 32) = 0x00000000#32)
    (j : Fin 128) :
    multiReduction .add [1] S128 sq 0x00000000#32 reduces_S128x32_S128 hφ hacc (ix1 j) = ∑ c : Fin 32, sq (ix2 j c) := by
  refine (Ideal.multiReduction_add_single sq 0x00000000#32 reduces_S128x32_S128 hφ hacc (ix1 j)).trans ?_
  refine Finset.sum_congr rfl fun k _ => congrArg sq ?_
  funext a
  apply Fin.ext
  match a with
  | ⟨0, _⟩ => rfl
  | ⟨1, _⟩ => rfl

/-- A [1, 32] row replicated down 128 rows reads, at (j, c), the row at c. -/
theorem rowbcast_apply (srow : FVec Ideal S1x32 .f32) (j : Fin 128) (c : Fin 32) :
    broadcastTo S128x32 srow broadcasts_S1x32_S128x32 (ix2 j c) = srow (ix2 (0 : Fin 1) c) :=
  broadcastTo_apply srow broadcasts_S1x32_S128x32 (ix2 j c) (ix2 (0 : Fin 1) c) fun a => by
    match a with
    | ⟨0, _⟩ => rfl
    | ⟨1, _⟩ => rfl

/-- One head of one group at row `j`, channel `d`. -/
theorem headTerm_apply (qs ks vs : FVec Ideal S128x32 .f32) (j : Fin 128) (d : Fin 32) :
    headTerm (F := Ideal) qs ks vs (ix2 j d)
      = Cert.LinAttn.headVal (fun j c => qs (ix2 j c)) (fun j c => ks (ix2 j c)) (fun j c => vs (ix2 j c)) j d := by
  unfold headTerm Cert.LinAttn.headVal
  rw [divf_apply]
  refine congrArg₂ Ideal.div ?_ ?_
  · rw [qm_apply]
    exact Finset.sum_congr rfl fun c _ => congrArg (qs (ix2 j c) * ·) (kv_apply ks vs c d)
  · rw [Cert.Lib.Layout.broadcastTo_a1_ab_apply, addf_apply, Cert.Lib.Layout.shapeCast_a_a1_apply, broadcast_apply]
    refine congrArg₂ (· + ·) ?_ rfl
    refine (rowsum_apply _ _ _ j).trans ?_
    refine Finset.sum_congr rfl fun c _ => ?_
    rw [mulf_apply, rowbcast_apply, shapeCast_a_1a_apply]
    exact congrArg (· * qs (ix2 j c)) (colsum_apply ks _ _ c)

end Cert.LinAttn.Ker

end
-- ==== Proof.KerBodyRead.lean ====
/-
  The body's operations, each read at an index.

  The fused projection `x · qkv_w` at (r, c) is the sum over the 256 input channels of `x(r, k) · w(k, c)`: the product
  runs into a zero accumulator, and a change of float format is the identity on the extended reals. Its first two
  column thirds are rectified, the last is taken as it is. The piece for group `g` and head `h` reads a table at row
  `128 g + j`, column `32 h + c`. Eight heads side by side read, at column `k`, head `⌊k / 32⌋` at its column
  `k mod 32`; four groups stacked read, at row `p`, group `⌊p / 128⌋` at its row `p mod 128`. The output projection
  at (p, q) is the sum over the 256 merged channels of `y(p, k) · w(k, q)`, plus the bias at `q`.
-/
import proofs.«164440_j56075093017288_1_alg».proof.Proof.KerBodyNF
import proofs.«164440_j56075093017288_1_alg».proof.Proof.HeadRead

noncomputable section

namespace Cert.LinAttn.Ker

open Idealize.ShloMosaic Idealize.ShloMosaic.ValueIdx Cert.KernelIdeal Cert.KernelIdeal.Gen

/-! ### The two large products' operand indices, axis by axis -/

theorem fp_lhs0 (i : S512x768.Idx) (q : (dot_S512x256_S256x768_S512x768_1_0_0_1_n_n).contr.Idx) : ((dot_S512x256_S256x768_S512x768_1_0_0_1_n_n).lhsIdx i q 0).val = (i 0).val := by
  unfold DotDims.lhsIdx
  rw [dif_neg (show ¬(0 : Fin S512x256.rank) ∈ (dot_S512x256_S256x768_S512x768_1_0_0_1_n_n).lhsBatch by decide),
    dif_pos (show (0 : Fin S512x256.rank) ∈ (dot_S512x256_S256x768_S512x768_1_0_0_1_n_n).lhsNonContracting by decide)]
  rfl
theorem fp_lhs1 (i : S512x768.Idx) (q : (dot_S512x256_S256x768_S512x768_1_0_0_1_n_n).contr.Idx) : ((dot_S512x256_S256x768_S512x768_1_0_0_1_n_n).lhsIdx i q 1).val = (q ⟨0, by decide⟩).val :=
  (dot_S512x256_S256x768_S512x768_1_0_0_1_n_n).lhsIdx_val_of_single rfl i q
theorem fp_rhs0 (i : S512x768.Idx) (q : (dot_S512x256_S256x768_S512x768_1_0_0_1_n_n).contr.Idx) : ((dot_S512x256_S256x768_S512x768_1_0_0_1_n_n).rhsIdx i q 0).val = (q ⟨0, by decide⟩).val :=
  (dot_S512x256_S256x768_S512x768_1_0_0_1_n_n).rhsIdx_val_of_single rfl i q
theorem fp_rhs1 (i : S512x768.Idx) (q : (dot_S512x256_S256x768_S512x768_1_0_0_1_n_n).contr.Idx) : ((dot_S512x256_S256x768_S512x768_1_0_0_1_n_n).rhsIdx i q 1).val = (i 1).val := by
  unfold DotDims.rhsIdx
  rw [dif_neg (show ¬(1 : Fin S256x768.rank) ∈ (dot_S512x256_S256x768_S512x768_1_0_0_1_n_n).rhsBatch by decide),
    dif_pos (show (1 : Fin S256x768.rank) ∈ (dot_S512x256_S256x768_S512x768_1_0_0_1_n_n).rhsNonContracting by decide)]
  rfl

theorem op_lhs0 (i : S512x256.Idx) (q : (dot_S512x256_S256x256_S512x256_1_0_0_1_n_n).contr.Idx) : ((dot_S512x256_S256x256_S512x256_1_0_0_1_n_n).lhsIdx i q 0).val = (i 0).val := by
  unfold DotDims.lhsIdx
  rw [dif_neg (show ¬(0 : Fin S512x256.rank) ∈ (dot_S512x256_S256x256_S512x256_1_0_0_1_n_n).lhsBatch by decide),
    dif_pos (show (0 : Fin S512x256.rank) ∈ (dot_S512x256_S256x256_S512x256_1_0_0_1_n_n).lhsNonContracting by decide)]
  rfl
theorem op_lhs1 (i : S512x256.Idx) (q : (dot_S512x256_S256x256_S512x256_1_0_0_1_n_n).contr.Idx) : ((dot_S512x256_S256x256_S512x256_1_0_0_1_n_n).lhsIdx i q 1).val = (q ⟨0, by decide⟩).val :=
  (dot_S512x256_S256x256_S512x256_1_0_0_1_n_n).lhsIdx_val_of_single rfl i q
theorem op_rhs0 (i : S512x256.Idx) (q : (dot_S512x256_S256x256_S512x256_1_0_0_1_n_n).contr.Idx) : ((dot_S512x256_S256x256_S512x256_1_0_0_1_n_n).rhsIdx i q 0).val = (q ⟨0, by decide⟩).val :=
  (dot_S512x256_S256x256_S512x256_1_0_0_1_n_n).rhsIdx_val_of_single rfl i q
theorem op_rhs1 (i : S512x256.Idx) (q : (dot_S512x256_S256x256_S512x256_1_0_0_1_n_n).contr.Idx) : ((dot_S512x256_S256x256_S512x256_1_0_0_1_n_n).rhsIdx i q 1).val = (i 1).val := by
  unfold DotDims.rhsIdx
  rw [dif_neg (show ¬(1 : Fin S256x256.rank) ∈ (dot_S512x256_S256x256_S512x256_1_0_0_1_n_n).rhsBatch by decide),
    dif_pos (show (1 : Fin S256x256.rank) ∈ (dot_S512x256_S256x256_S512x256_1_0_0_1_n_n).rhsNonContracting by decide)]
  rfl

/-! ### The fused projection and its three thirds -/

/-- `x · qkv_w` at row `r`, channel `c`. -/
theorem qkv_apply (x0 : Vec Ideal S512x256 .f32) (x1 : Vec Ideal S256x768 .f32) (r : Fin 512) (c : Fin 768) :
    k0_pay2 (F := Ideal) x0 x1 (ix2 r c) = Cert.LinAttn.proj (fun r k => x0 (ix2 r k)) (fun k c => x1 (ix2 k c)) r c := by
  unfold k0_pay2 Cert.LinAttn.proj
  simp only [matmul]
  rw [Ideal.matmul_constant_zero_apply, ← Equiv.sum_comp (contrEquiv1 dot_S512x256_S256x768_S512x768_1_0_0_1_n_n 256 rfl rfl).symm]
  refine Finset.sum_congr rfl fun k _ => ?_
  have hk := contrEquiv1_symm_val dot_S512x256_S256x768_S512x768_1_0_0_1_n_n 256 rfl rfl k
  have el : (dot_S512x256_S256x768_S512x768_1_0_0_1_n_n).lhsIdx (ix2 r c) ((contrEquiv1 dot_S512x256_S256x768_S512x768_1_0_0_1_n_n 256 rfl rfl).symm k) = ix2 r k :=
    funext fun a => Fin.ext (by
      match a with
      | ⟨0, _⟩ => exact fp_lhs0 _ _
      | ⟨1, _⟩ => exact (fp_lhs1 _ _).trans hk)
  have er : (dot_S512x256_S256x768_S512x768_1_0_0_1_n_n).rhsIdx (ix2 r c) ((contrEquiv1 dot_S512x256_S256x768_S512x768_1_0_0_1_n_n 256 rfl rfl).symm k) = ix2 k c :=
    funext fun a => Fin.ext (by
      match a with
      | ⟨0, _⟩ => exact (fp_rhs0 _ _).trans hk
      | ⟨1, _⟩ => exact fp_rhs1 _ _)
  rw [el, er]
  rfl

/-- The rectified query third at row `r`, channel `m`. -/
theorem tabQ_apply (x0 : Vec Ideal S512x256 .f32) (x1 : Vec Ideal S256x768 .f32) (r : Fin 512) (m : Fin 256) :
    k0_pay3 (F := Ideal) x0 x1 (ix2 r m)
      = max (Cert.LinAttn.proj (fun r k => x0 (ix2 r k)) (fun k c => x1 (ix2 k c)) r ⟨m.val, by omega⟩) 0 := by
  unfold k0_pay3
  rw [maximumf_apply, broadcast_apply,
    slice2_axis1_apply 0 (k0_pay2 (F := Ideal) x0 x1) slices_S512x768_o0_0_S512x256 r m ⟨m.val, by omega⟩ (Nat.zero_add _).symm,
    qkv_apply]
  exact congrArg (max _) Ideal.ofBits_zero_f32

/-- The rectified key third at row `r`, channel `m`. -/
theorem tabK_apply (x0 : Vec Ideal S512x256 .f32) (x1 : Vec Ideal S256x768 .f32) (r : Fin 512) (m : Fin 256) :
    k0_pay4 (F := Ideal) x0 x1 (ix2 r m)
      = max (Cert.LinAttn.proj (fun r k => x0 (ix2 r k)) (fun k c => x1 (ix2 k c)) r ⟨256 + m.val, by omega⟩) 0 := by
  unfold k0_pay4
  rw [maximumf_apply, broadcast_apply,
    slice2_axis1_apply 256 (k0_pay2 (F := Ideal) x0 x1) slices_S512x768_o0_256_S512x256 r m ⟨256 + m.val, by omega⟩ rfl,
    qkv_apply]
  exact congrArg (max _) Ideal.ofBits_zero_f32

/-- The value third at row `r`, channel `m`. -/
theorem tabV_apply (x0 : Vec Ideal S512x256 .f32) (x1 : Vec Ideal S256x768 .f32) (r : Fin 512) (m : Fin 256) :
    k0_pay5 (F := Ideal) x0 x1 (ix2 r m)
      = Cert.LinAttn.proj (fun r k => x0 (ix2 r k)) (fun k c => x1 (ix2 k c)) r ⟨512 + m.val, by omega⟩ := by
  unfold k0_pay5
  rw [slice2_axis1_apply 512 (k0_pay2 (F := Ideal) x0 x1) slices_S512x768_o0_512_S512x256 r m ⟨512 + m.val, by omega⟩ rfl,
    qkv_apply]

/-! ### Pieces, heads side by side, groups stacked -/

/-- The piece for group `g`, head `h` at (j, c) is the table at row `128 g + j`, column `32 h + c`. -/
theorem piece_apply {α : Type} (M : S512x256.Idx → α) (g : Fin 4) (h : Fin 8) (j : Fin 128) (c : Fin 32) :
    extractStridedSlice S128x32 ![0, 32 * h.val] (extractStridedSlice S128x256 ![128 * g.val, 0] M (slices_rows g)) (slices_cols h) (ix2 j c)
      = M (ix2 ⟨128 * g.val + j.val, by omega⟩ ⟨32 * h.val + c.val, by omega⟩) := by
  rw [slice2_axis1_apply (32 * h.val) _ (slices_cols h) j c ⟨32 * h.val + c.val, by omega⟩ rfl,
    slice2_axis0_apply (128 * g.val) M (slices_rows g) j _ ⟨128 * g.val + j.val, by omega⟩ rfl]

/-- A group at (j, k): the head that holds column `k`, at that column's place inside the head. -/
theorem group_apply {F : FTy → Type} [FloatOps F] (Q K V : FVec F S512x256 .f32) (g : Fin 4) (j : Fin 128) (k : Fin 256) :
    group Q K V g (ix2 j k) = head Q K V g ⟨k.val / 32, by omega⟩ (ix2 j ⟨k.val % 32, by omega⟩) := by
  unfold group headList
  exact concatenate_ofFn_apply (t := S128x256) (s₁ := S128x32) 1 (fun h => head Q K V g h) _ rfl 32 rfl (ix2 j k)
    ⟨k.val / 32, by omega⟩ rfl (ix2 j ⟨k.val % 32, by omega⟩) rfl (fun b hb => by
      match b with
      | ⟨0, _⟩ => rfl
      | ⟨1, _⟩ => exact absurd rfl hb)

/-- The block's attention result at (p, k): the group that holds row `p`, at that row's place inside the group. -/
theorem blockY_apply {F : FTy → Type} [FloatOps F] (Q K V : FVec F S512x256 .f32) (p : Fin 512) (k : Fin 256) :
    blockY Q K V (ix2 p k) = group Q K V ⟨p.val / 128, by omega⟩ (ix2 ⟨p.val % 128, by omega⟩ k) := by
  unfold blockY groupList
  exact concatenate_ofFn_apply (t := S512x256) (s₁ := S128x256) 0 (fun g => group Q K V g) _ rfl 128 rfl (ix2 p k)
    ⟨p.val / 128, by omega⟩ rfl (ix2 ⟨p.val % 128, by omega⟩ k) rfl (fun b hb => by
      match b with
      | ⟨0, _⟩ => exact absurd rfl hb
      | ⟨1, _⟩ => rfl)

/-! ### The output projection -/

/-- `y · w + b` at (p, q). -/
theorem outProj_apply (Y : FVec Ideal S512x256 .f32) (W : Vec Ideal S256x256 .f32) (B : Vec Ideal S256 .f32) (p : Fin 512) (q : Fin 256) :
    outProj (F := Ideal) Y W B (ix2 p q) = (∑ k : Fin 256, Y (ix2 p k) * W (ix2 k q)) + B (ix1 q) := by
  unfold outProj
  rw [addf_apply, broadcastTo_1b_ab_apply, shapeCast_a_1a_apply]
  refine congrArg (· + B (ix1 q)) ?_
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : (dot_S512x256_S256x256_S512x256_1_0_0_1_n_n).lhsIdx (ix2 p q) ((contrEquiv1 dot_S512x256_S256x256_S512x256_1_0_0_1_n_n 256 rfl rfl).symm k) = ix2 p k :=
    funext fun a => Fin.ext (by
      match a with
      | ⟨0, _⟩ => exact op_lhs0 _ _
      | ⟨1, _⟩ => exact (op_lhs1 _ _).trans hk)
  have er : (dot_S512x256_S256x256_S512x256_1_0_0_1_n_n).rhsIdx (ix2 p q) ((contrEquiv1 dot_S512x256_S256x256_S512x256_1_0_0_1_n_n 256 rfl rfl).symm k) = ix2 k q :=
    funext fun a => Fin.ext (by
      match a with
      | ⟨0, _⟩ => exact (op_rhs0 _ _).trans hk
      | ⟨1, _⟩ => exact op_rhs1 _ _)
  rw [el, er]
  rfl

end Cert.LinAttn.Ker
end
-- ==== Proof.KerBody.lean ====
/-
  The block one grid point leaves is the specification's block.

  For a row `p` of the block and a merged channel `k`, the attention result at (p, k) is head `⌊k / 32⌋` of group
  `⌊p / 128⌋` at row `p mod 128`, channel `k mod 32`. The three pieces that head is computed from are, entry by entry,
  the specification's query, key and value tables of the group that holds row `p`: row `128 ⌊p / 128⌋ + j` of
  `x · qkv_w`, at channel `32 h + c` of the first third (rectified), of the second third (rectified), of the last third.
  With the per-head term read at an index and the output projection read at an index, both sides are the same sum.
-/
import proofs.«164440_j56075093017288_1_alg».proof.Proof.KerBodyRead

noncomputable section

namespace Cert.LinAttn.Ker

open Idealize.ShloMosaic Idealize.ShloMosaic.ValueIdx Cert.KernelIdeal Cert.KernelIdeal.Gen

/-! ### The three pieces of a head as the specification's tables -/

section Tables
variable (x0 : Vec Ideal S512x256 .f32) (x1 : Vec Ideal S256x768 .f32) (p : Fin 512) (h : Fin 8)

/-- Group `⌊p / 128⌋`, head `h` of the rectified query third: row `j` of the group that holds row `p`, channel `c` of head `h`. -/
theorem pieceQ_eq :
    (fun (j : Fin 128) (c : Fin 32) => piece (k0_pay3 (F := Ideal) x0 x1) ⟨p.val / 128, by omega⟩ h (ix2 j c))
      = fun j c => max (Cert.LinAttn.proj (fun j k => x0 (ix2 (Cert.LinAttn.groupRow Cert.LinAttn.dvd_block p j) k))
          (fun k c => x1 (ix2 k c)) j (Cert.LinAttn.chanQ h c)) 0 := by
  funext j c
  unfold piece
  rw [piece_apply, tabQ_apply]
  rfl

/-- The same piece of the rectified key third. -/
theorem pieceK_eq :
    (fun (j : Fin 128) (c : Fin 32) => piece (k0_pay4 (F := Ideal) x0 x1) ⟨p.val / 128, by omega⟩ h (ix2 j c))
      = fun j c => max (Cert.LinAttn.proj (fun j k => x0 (ix2 (Cert.LinAttn.groupRow Cert.LinAttn.dvd_block p j) k))
          (fun k c => x1 (ix2 k c)) j (Cert.LinAttn.chanK h c)) 0 := by
  funext j c
  unfold piece
  rw [piece_apply, tabK_apply]
  rfl

/-- The same piece of the value third. -/
theorem pieceV_eq :
    (fun (j : Fin 128) (c : Fin 32) => piece (k0_pay5 (F := Ideal) x0 x1) ⟨p.val / 128, by omega⟩ h (ix2 j c))
      = fun j c => Cert.LinAttn.proj (fun j k => x0 (ix2 (Cert.LinAttn.groupRow Cert.LinAttn.dvd_block p j) k))
          (fun k c => x1 (ix2 k c)) j (Cert.LinAttn.chanV h c) := by
  funext j c
  unfold piece
  rw [piece_apply, tabV_apply]
  rfl

end Tables

/-! ### The block the body leaves is the specification's block -/

/-- What one grid point leaves in its output block is the linear-attention result of its 512 rows, index by index. -/
theorem out_eq (x0 : Vec Ideal S512x256 .f32) (x1 : Vec Ideal S256x768 .f32) (x2 : Vec Ideal S256x256 .f32) (x3 : Vec Ideal S256 .f32) :
    Cert.KernelIdeal.Gen.out0_4 (F := Ideal) x0 x1 x2 x3 = Cert.LinAttn.G Cert.LinAttn.dvd_block x0 x1 x2 x3 := by
  funext i
  obtain ⟨p, q, rfl⟩ : ∃ (p : Fin 512) (q : Fin 256), i = ix2 p q := ⟨i 0, i 1, eq_ix2 i⟩
  rw [out_nf, outProj_apply]
  unfold Cert.LinAttn.G Cert.LinAttn.outRow
  refine congrArg₂ (· + ·) (Finset.sum_congr rfl fun k _ => congrArg (· * x2 (ix2 k q)) ?_) rfl
  rw [blockY_apply, group_apply]
  unfold head
  rw [headTerm_apply, pieceQ_eq, pieceK_eq, pieceV_eq]
  rfl

end Cert.LinAttn.Ker
end
-- ==== Proof.RefIdx.lean ====
/-
  Where each layout step of the host program reads its operand.

  Every reshape, slice, transpose and broadcast of the host program reads one element of its operand, at an index that
  is a function of the result index; a contraction or a sum reads, for each value `k` of the contracted axis, one element
  of each operand. This file evaluates those index functions at an index given by its coordinates: the result is again
  an index given by coordinates, each one a quotient or a remainder of the row-major position by literal extents.

  The coordinates that matter: a batch index of the split-heads arrays is `b = 8 n + h` (group `n` of 1024, head `h` of
  8), a row of the unsplit arrays is `128 n + j` (row `j` of the group's 128) and a channel of a 256-channel third is
  `32 h + c` (lane `c` of the head's 32).
-/
import proofs.«164440_j56075093017288_1_alg».proof.Proof.Gen.ReferenceIdeal.Read
import proofs.«164440_j56075093017288_1_alg».proof.Proof.LinAttnSpec

noncomputable section

namespace Cert.LinAttn.Ref

open Cert.ReferenceIdeal Cert.ReferenceIdeal.Read Idealize.ShloMosaic Idealize.ShloMosaic.ValueIdx Cert.LinAttn

/-- The batch index `8 n + h` of group `n`, head `h`. -/
def bh (n : Fin 1024) (h : Fin 8) : Fin 8192 := ⟨8 * n.val + h.val, by omega⟩
/-- Row `j` of group `n`: row `128 n + j` of the whole array. -/
def grow (n : Fin 1024) (j : Fin 128) : Fin 131072 := ⟨128 * n.val + j.val, by omega⟩
/-- Lane `c` of head `h` inside one 256-channel third: channel `32 h + c`. -/
def chan (h : Fin 8) (c : Fin 32) : Fin 256 := ⟨32 * h.val + c.val, by omega⟩
/-- The group of row `r`. -/
def groupOf (r : Fin 131072) : Fin 1024 := ⟨r.val / 128, by omega⟩

variable (n : Fin 1024) (h : Fin 8) (j : Fin 128) (c d : Fin 32) (r : Fin 131072) (k q : Fin 256)

/-! ## The fused projection and its three thirds -/

theorem lidx0 (cc : Fin 768) : lidx_main_v0 (ix2 r cc) k = ix2 r k := by
  funext a
  match a with
  | ⟨0, _⟩ => rfl
  | ⟨1, _⟩ => rfl
theorem ridx0 (cc : Fin 768) : ridx_main_v0 (ix2 r cc) k = ix2 k cc := by
  funext a
  match a with
  | ⟨0, _⟩ => rfl
  | ⟨1, _⟩ => rfl

/-- Third `0`, channel `32 h + c`, is projected channel `32 h + c`. -/
theorem idx1Q : idx_main_v1 (ix3 r (⟨0, by omega⟩ : Fin 3) (chan h c)) = ix2 r (chanQ h c) := by
  funext a
  match a with
  | ⟨0, _⟩ => exact Fin.ext (by show ((r.val * 3 + 0) * 256 + (32 * h.val + c.val)) / 768 = r.val; omega)
  | ⟨1, _⟩ => exact Fin.ext (by show ((r.val * 3 + 0) * 256 + (32 * h.val + c.val)) % 768 = 32 * h.val + c.val; omega)
/-- Third `1` starts at projected channel 256. -/
theorem idx1K : idx_main_v1 (ix3 r (⟨1, by omega⟩ : Fin 3) (chan h c)) = ix2 r (chanK h c) := by
  funext a
  match a with
  | ⟨0, _⟩ => exact Fin.ext (by show ((r.val * 3 + 1) * 256 + (32 * h.val + c.val)) / 768 = r.val; omega)
  | ⟨1, _⟩ => exact Fin.ext (by show ((r.val * 3 + 1) * 256 + (32 * h.val + c.val)) % 768 = 256 + (32 * h.val + c.val); omega)
/-- Third `2` starts at projected channel 512. -/
theorem idx1V : idx_main_v1 (ix3 r (⟨2, by omega⟩ : Fin 3) (chan h c)) = ix2 r (chanV h c) := by
  funext a
  match a with
  | ⟨0, _⟩ => exact Fin.ext (by show ((r.val * 3 + 2) * 256 + (32 * h.val + c.val)) / 768 = r.val; omega)
  | ⟨1, _⟩ => exact Fin.ext (by show ((r.val * 3 + 2) * 256 + (32 * h.val + c.val)) % 768 = 512 + (32 * h.val + c.val); omega)

/-- The three slices keep the row and the channel and pick third 0, 1, 2. -/
theorem idx2 : idx_main_v2 (ix3 r (⟨0, by omega⟩ : Fin 1) k) = ix3 r (⟨0, by omega⟩ : Fin 3) k := by
  funext a
  match a with
  | ⟨0, _⟩ => rfl
  | ⟨1, _⟩ => rfl
  | ⟨2, _⟩ => rfl
theorem idx4 : idx_main_v4 (ix3 r (⟨0, by omega⟩ : Fin 1) k) = ix3 r (⟨1, by omega⟩ : Fin 3) k := by
  funext a
  match a with
  | ⟨0, _⟩ => rfl
  | ⟨1, _⟩ => rfl
  | ⟨2, _⟩ => rfl
theorem idx6 : idx_main_v6 (ix3 r (⟨0, by omega⟩ : Fin 1) k) = ix3 r (⟨2, by omega⟩ : Fin 3) k := by
  funext a
  match a with
  | ⟨0, _⟩ => rfl
  | ⟨1, _⟩ => rfl
  | ⟨2, _⟩ => rfl

/-- Dropping the unit axis keeps row and channel. -/
theorem idx3 : idx_main_v3 (ix2 r k) = ix3 r (⟨0, by omega⟩ : Fin 1) k := by
  funext a
  match a with
  | ⟨0, _⟩ => exact Fin.ext (by show (r.val * 256 + k.val) / 256 = r.val; omega)
  | ⟨1, _⟩ => rfl
  | ⟨2, _⟩ => exact Fin.ext (by show (r.val * 256 + k.val) % 256 = k.val; omega)
theorem idx5 : idx_main_v5 (ix2 r k) = ix3 r (⟨0, by omega⟩ : Fin 1) k := idx3 r k
theorem idx7 : idx_main_v7 (ix2 r k) = ix3 r (⟨0, by omega⟩ : Fin 1) k := idx3 r k

/-! ## Splitting the heads: `[131072, 256] → [1024, 128, 8, 32] → [1024, 8, 128, 32] → [8192, 128, 32]` -/

/-- Element `(n, j, h, c)` of the four-axis view is row `128 n + j`, channel `32 h + c`. -/
theorem idx8 : idx_main_v8 (ix4 n j h c) = ix2 (grow n j) (chan h c) := by
  funext a
  match a with
  | ⟨0, _⟩ => exact Fin.ext (by show (((n.val * 128 + j.val) * 8 + h.val) * 32 + c.val) / 256 = 128 * n.val + j.val; omega)
  | ⟨1, _⟩ => exact Fin.ext (by show (((n.val * 128 + j.val) * 8 + h.val) * 32 + c.val) % 256 = 32 * h.val + c.val; omega)
theorem idx12 : idx_main_v12 (ix4 n j h c) = ix2 (grow n j) (chan h c) := idx8 n h j c
theorem idx16 : idx_main_v16 (ix4 n j h c) = ix2 (grow n j) (chan h c) := idx8 n h j c

/-- The transposition exchanges the row and the head axes. -/
theorem idx9 : idx_main_v9 (ix4 n h j c) = ix4 n j h c := by
  funext a
  match a with
  | ⟨0, _⟩ => rfl
  | ⟨1, _⟩ => rfl
  | ⟨2, _⟩ => rfl
  | ⟨3, _⟩ => rfl
theorem idx13 : idx_main_v13 (ix4 n h j c) = ix4 n j h c := idx9 n h j c
theorem idx17 : idx_main_v17 (ix4 n h j c) = ix4 n j h c := idx9 n h j c

/-- Batch `8 n + h` of the three-axis view is group `n`, head `h`. -/
theorem idx10 : idx_main_v10 (ix3 (bh n h) j c) = ix4 n h j c := by
  funext a
  match a with
  | ⟨0, _⟩ => exact Fin.ext (by show (((8 * n.val + h.val) * 128 + j.val) * 32 + c.val) / 32768 = n.val; omega)
  | ⟨1, _⟩ => exact Fin.ext (by show (((8 * n.val + h.val) * 128 + j.val) * 32 + c.val) / 4096 % 8 = h.val; omega)
  | ⟨2, _⟩ => exact Fin.ext (by show (((8 * n.val + h.val) * 128 + j.val) * 32 + c.val) / 32 % 128 = j.val; omega)
  | ⟨3, _⟩ => exact Fin.ext (by show (((8 * n.val + h.val) * 128 + j.val) * 32 + c.val) % 32 = c.val; omega)
theorem idx14 : idx_main_v14 (ix3 (bh n h) j c) = ix4 n h j c := idx10 n h j c
theorem idx18 : idx_main_v18 (ix3 (bh n h) j c) = ix4 n h j c := idx10 n h j c

/-! ## The contractions and sums inside one batch -/

variable (b : Fin 8192)

theorem lidx19 (j' : Fin 128) : lidx_main_v19 (ix3 b c d) j' = ix3 b j' c := by
  funext a
  match a with
  | ⟨0, _⟩ => rfl
  | ⟨1, _⟩ => rfl
  | ⟨2, _⟩ => rfl
theorem ridx19 (j' : Fin 128) : ridx_main_v19 (ix3 b c d) j' = ix3 b j' d := by
  funext a
  match a with
  | ⟨0, _⟩ => rfl
  | ⟨1, _⟩ => rfl
  | ⟨2, _⟩ => rfl
theorem idx20 (j' : Fin 128) : idx_main_v20 (ix2 b c) j' = ix3 b j' c := by
  funext a
  match a with
  | ⟨0, _⟩ => rfl
  | ⟨1, _⟩ => rfl
  | ⟨2, _⟩ => rfl
theorem idx21 (z : Fin 1) : idx_main_v21 (ix3 b z c) = ix2 b c := by
  funext a
  match a with
  | ⟨0, _⟩ => rfl
  | ⟨1, _⟩ => rfl
theorem lidx22 (c' : Fin 32) : lidx_main_v22 (ix3 b j d) c' = ix3 b j c' := by
  funext a
  match a with
  | ⟨0, _⟩ => rfl
  | ⟨1, _⟩ => rfl
  | ⟨2, _⟩ => rfl
theorem ridx22 (c' : Fin 32) : ridx_main_v22 (ix3 b j d) c' = ix3 b c' d := by
  funext a
  match a with
  | ⟨0, _⟩ => rfl
  | ⟨1, _⟩ => rfl
  | ⟨2, _⟩ => rfl
theorem idx23 : idx_main_v23 (ix3 b j c) = ix3 b (⟨0, Nat.one_pos⟩ : Fin 1) c := by
  funext a
  match a with
  | ⟨0, _⟩ => rfl
  | ⟨1, _⟩ => rfl
  | ⟨2, _⟩ => rfl
theorem idx25 (c' : Fin 32) : idx_main_v25 (ix2 b j) c' = ix3 b j c' := by
  funext a
  match a with
  | ⟨0, _⟩ => rfl
  | ⟨1, _⟩ => rfl
  | ⟨2, _⟩ => rfl
theorem idx26 (z : Fin 1) : idx_main_v26 (ix3 b j z) = ix2 b j := by
  funext a
  match a with
  | ⟨0, _⟩ => rfl
  | ⟨1, _⟩ => rfl
theorem idx29 : idx_main_v29 (ix3 b j d) = ix3 b j (⟨0, Nat.one_pos⟩ : Fin 1) := by
  funext a
  match a with
  | ⟨0, _⟩ => rfl
  | ⟨1, _⟩ => rfl
  | ⟨2, _⟩ => rfl

/-! ## Merging the heads again: `[8192, 128, 32] → [1024, 8, 128, 32] → [1024, 128, 8, 32] → [131072, 256]` -/

theorem idx31 : idx_main_v31 (ix4 n h j c) = ix3 (bh n h) j c := by
  funext a
  match a with
  | ⟨0, _⟩ => exact Fin.ext (by show (((n.val * 8 + h.val) * 128 + j.val) * 32 + c.val) / 4096 = 8 * n.val + h.val; omega)
  | ⟨1, _⟩ => exact Fin.ext (by show (((n.val * 8 + h.val) * 128 + j.val) * 32 + c.val) / 32 % 128 = j.val; omega)
  | ⟨2, _⟩ => exact Fin.ext (by show (((n.val * 8 + h.val) * 128 + j.val) * 32 + c.val) % 32 = c.val; omega)
theorem idx32 : idx_main_v32 (ix4 n j h c) = ix4 n h j c := by
  funext a
  match a with
  | ⟨0, _⟩ => rfl
  | ⟨1, _⟩ => rfl
  | ⟨2, _⟩ => rfl
  | ⟨3, _⟩ => rfl
/-- Row `r`, merged channel `k`: group `⌊r / 128⌋`, row `r mod 128` of it, head `⌊k / 32⌋`, lane `k mod 32`. -/
theorem idx33 : idx_main_v33 (ix2 r k) = ix4 (groupOf r) (inGroup r) (headOf k) (laneOf k) := by
  funext a
  match a with
  | ⟨0, _⟩ => exact Fin.ext (by show (r.val * 256 + k.val) / 32768 = r.val / 128; omega)
  | ⟨1, _⟩ => exact Fin.ext (by show (r.val * 256 + k.val) / 256 % 128 = r.val % 128; omega)
  | ⟨2, _⟩ => exact Fin.ext (by show (r.val * 256 + k.val) / 32 % 8 = k.val / 32; omega)
  | ⟨3, _⟩ => exact Fin.ext (by show (r.val * 256 + k.val) % 32 = k.val % 32; omega)

/-! ## The output projection and the bias row -/

theorem lidx34 : lidx_main_v34 (ix2 r q) k = ix2 r k := by
  funext a
  match a with
  | ⟨0, _⟩ => rfl
  | ⟨1, _⟩ => rfl
theorem ridx34 : ridx_main_v34 (ix2 r q) k = ix2 k q := by
  funext a
  match a with
  | ⟨0, _⟩ => rfl
  | ⟨1, _⟩ => rfl
theorem idx35 (z : Fin 1) : idx_main_v35 (ix2 z q) = ix1 q := by
  funext a
  match a with
  | ⟨0, _⟩ => rfl
theorem idx36 : idx_main_v36 (ix2 r q) = ix2 (⟨0, Nat.one_pos⟩ : Fin 1) q := by
  funext a
  match a with
  | ⟨0, _⟩ => rfl
  | ⟨1, _⟩ => rfl

end Cert.LinAttn.Ref

end
-- ==== Proof.RefQkv.lean ====
/-
  Queries, keys and values of the host program.

  The fused projection at row `128 n + j` is `proj` of row `j` of group `n`. Its three thirds are cut out by a reshape
  to `[131072, 3, 256]`, a slice and a reshape back; each third is then split into heads, so that element `(8 n + h, j, c)`
  of the split array is the third's channel `32 h + c` at row `128 n + j`. The first two thirds are rectified with the
  zero word as the second argument of the maximum, which is the order `attn` writes.
-/
import proofs.«164440_j56075093017288_1_alg».proof.Proof.RefIdx

noncomputable section

namespace Cert.LinAttn.Ref

open Cert.ReferenceIdeal Cert.ReferenceIdeal.Read Idealize.ShloMosaic Idealize.ShloMosaic.ValueIdx Cert.LinAttn

variable (x0 : (⟨S131072x256, .f32⟩ : BufTy).Contents (Elt Ideal)) (x1 : (⟨S256x768, .f32⟩ : BufTy).Contents (Elt Ideal))
  (x2 : (⟨S256x256, .f32⟩ : BufTy).Contents (Elt Ideal)) (x3 : (⟨S256, .f32⟩ : BufTy).Contents (Elt Ideal))

/-- The 128 rows of group `n`. -/
def Xg (n : Fin 1024) : Fin 128 → Fin 256 → EReal := fun j k => x0 (ix2 (grow n j) k)
/-- The fused projection's weights as a table. -/
def Wt : Fin 256 → Fin 768 → EReal := fun k c => x1 (ix2 k c)

variable (n : Fin 1024) (h : Fin 8) (j : Fin 128) (c d : Fin 32)

/-- The fused projection at a row of group `n`. -/
theorem v0_at (cc : Fin 768) : val_main_v0 (F := Ideal) x0 x1 (ix2 (grow n j) cc) = proj (Xg x0 n) (Wt x1) j cc := by
  rw [val_main_v0_apply]
  refine Finset.sum_congr rfl fun k _ => ?_
  rw [lidx0, ridx0]
  rfl

/-- The first third through the head split: the query before rectification. -/
theorem v10_at : val_main_v10 (F := Ideal) x0 x1 (ix3 (bh n h) j c) = proj (Xg x0 n) (Wt x1) j (chanQ h c) := by
  rw [val_main_v10_apply, idx10, val_main_v9_apply, idx9, val_main_v8_apply, idx8, val_main_v3_apply, idx3,
    val_main_v2_apply, idx2, val_main_v1_apply, idx1Q, v0_at]
/-- The second third: the key before rectification. -/
theorem v14_at : val_main_v14 (F := Ideal) x0 x1 (ix3 (bh n h) j c) = proj (Xg x0 n) (Wt x1) j (chanK h c) := by
  rw [val_main_v14_apply, idx14, val_main_v13_apply, idx13, val_main_v12_apply, idx12, val_main_v5_apply, idx5,
    val_main_v4_apply, idx4, val_main_v1_apply, idx1K, v0_at]
/-- The last third: the value. -/
theorem v18_at : val_main_v18 (F := Ideal) x0 x1 (ix3 (bh n h) j c) = proj (Xg x0 n) (Wt x1) j (chanV h c) := by
  rw [val_main_v18_apply, idx18, val_main_v17_apply, idx17, val_main_v16_apply, idx16, val_main_v7_apply, idx7,
    val_main_v6_apply, idx6, val_main_v1_apply, idx1V, v0_at]

/-- The rectified query. -/
theorem v11_at : val_main_v11 (F := Ideal) x0 x1 (ix3 (bh n h) j c) = max (proj (Xg x0 n) (Wt x1) j (chanQ h c)) 0 := by
  rw [val_main_v11_apply, v10_at, val_main_call0_v0_apply, val_main_call0_cst_apply, Ideal.maximumf_def,
    Ideal.ofBits_def, Ideal.ofBits_zero_f32]
/-- The rectified key. -/
theorem v15_at : val_main_v15 (F := Ideal) x0 x1 (ix3 (bh n h) j c) = max (proj (Xg x0 n) (Wt x1) j (chanK h c)) 0 := by
  rw [val_main_v15_apply, v14_at, val_main_call1_v0_apply, val_main_call1_cst_apply, Ideal.maximumf_def,
    Ideal.ofBits_def, Ideal.ofBits_zero_f32]

end Cert.LinAttn.Ref

end
-- ==== Proof.RefIsSpec.lean ====
/-
  The host program computes the specification.

  With the queries, keys and values of batch `8 n + h` read as `attn`'s three tables, the two contractions and the two
  sums inside a batch are the numerator and the normaliser of `headVal` and their quotient is `attn`; merging the heads
  puts head `⌊k / 32⌋`, lane `k mod 32` at merged channel `k`, and the output projection with the bias row gives
  `outRow`. The only laws used are `0 + a = a` for the two sums' initial value and the word `0x00000000` being zero.
-/
import proofs.«164440_j56075093017288_1_alg».proof.Proof.RefQkv

noncomputable section

namespace Cert.LinAttn.Ref

open Cert.ReferenceIdeal Cert.ReferenceIdeal.Read Idealize.ShloMosaic Idealize.ShloMosaic.ValueIdx Cert.LinAttn

variable (x0 : (⟨S131072x256, .f32⟩ : BufTy).Contents (Elt Ideal)) (x1 : (⟨S256x768, .f32⟩ : BufTy).Contents (Elt Ideal))
  (x2 : (⟨S256x256, .f32⟩ : BufTy).Contents (Elt Ideal)) (x3 : (⟨S256, .f32⟩ : BufTy).Contents (Elt Ideal))

variable (n : Fin 1024) (h : Fin 8) (j : Fin 128) (c d : Fin 32)

/-! ## Inside one batch: the head's linear attention -/

/-- The query table of group `n`, head `h`, as `attn` writes it. -/
def Qt : Fin 128 → Fin 32 → EReal := fun j c => max (proj (Xg x0 n) (Wt x1) j (chanQ h c)) 0
/-- The key table. -/
def Kt : Fin 128 → Fin 32 → EReal := fun j c => max (proj (Xg x0 n) (Wt x1) j (chanK h c)) 0
/-- The value table. -/
def Vt : Fin 128 → Fin 32 → EReal := fun j c => proj (Xg x0 n) (Wt x1) j (chanV h c)

/-- `kv(c, d) = ∑ j', k(j', c) · v(j', d)`. -/
theorem v19_at : val_main_v19 (F := Ideal) x0 x1 (ix3 (bh n h) c d)
    = ∑ j' : Fin 128, Kt x0 x1 n h j' c * Vt x0 x1 n h j' d := by
  rw [val_main_v19_apply]
  refine Finset.sum_congr rfl fun j' _ => ?_
  rw [lidx19, ridx19, v15_at, v18_at]
  rfl

/-- `s(c) = ∑ j', k(j', c)`: the sum starts from the zero word. -/
theorem v20_at : val_main_v20 (F := Ideal) x0 x1 (ix2 (bh n h) c) = ∑ j' : Fin 128, Kt x0 x1 n h j' c := by
  rw [val_main_v20_apply, val_main_cst_apply, Ideal.ofBits_def, Ideal.ofBits_zero_f32, zero_add]
  refine Finset.sum_congr rfl fun j' _ => ?_
  rw [idx20, v15_at]
  rfl

/-- The numerator `∑ c, q(j, c) · kv(c, d)`. -/
theorem v22_at : val_main_v22 (F := Ideal) x0 x1 (ix3 (bh n h) j d)
    = ∑ c' : Fin 32, Qt x0 x1 n h j c' * ∑ j' : Fin 128, Kt x0 x1 n h j' c' * Vt x0 x1 n h j' d := by
  rw [val_main_v22_apply]
  refine Finset.sum_congr rfl fun c' _ => ?_
  rw [lidx22, ridx22, v11_at, v19_at]
  rfl

/-- One term of the normaliser, `s(c) · q(j, c)`. -/
theorem v24_at : val_main_v24 (F := Ideal) x0 x1 (ix3 (bh n h) j c)
    = (∑ j' : Fin 128, Kt x0 x1 n h j' c) * Qt x0 x1 n h j c := by
  rw [val_main_v24_apply, val_main_v23_apply, idx23, val_main_v21_apply, idx21, v20_at, v11_at, Ideal.mulf_def]
  rfl

/-- The normaliser before the stabiliser: again a sum from the zero word. -/
theorem v25_at : val_main_v25 (F := Ideal) x0 x1 (ix2 (bh n h) j)
    = ∑ c' : Fin 32, (∑ j' : Fin 128, Kt x0 x1 n h j' c') * Qt x0 x1 n h j c' := by
  rw [val_main_v25_apply, val_main_cst_0_apply, Ideal.ofBits_def, Ideal.ofBits_zero_f32, zero_add]
  refine Finset.sum_congr rfl fun c' _ => ?_
  rw [idx25, v24_at]

/-- The normaliser with the stabiliser added. -/
theorem v28_at (z : Fin 1) : val_main_v28 (F := Ideal) x0 x1 (ix3 (bh n h) j z)
    = (∑ c' : Fin 32, (∑ j' : Fin 128, Kt x0 x1 n h j' c') * Qt x0 x1 n h j c') + eps := by
  rw [val_main_v28_apply, val_main_v26_apply, idx26, v25_at, val_main_v27_apply, val_main_cst_1_apply, Ideal.addf_def,
    Ideal.ofBits_def]
  rfl

/-- The quotient is the head's linear attention. -/
theorem v30_at : val_main_v30 (F := Ideal) x0 x1 (ix3 (bh n h) j d) = attn (Xg x0 n) (Wt x1) h j d := by
  rw [val_main_v30_apply, v22_at, val_main_v29_apply, idx29, v28_at, Ideal.hostDivf_def]
  rfl

/-! ## The heads side by side, the output projection and the bias -/

variable (r : Fin 131072) (k q : Fin 256)

/-- Merged channel `k` of row `r` is lane `k mod 32` of head `⌊k / 32⌋` in the group of `r`. -/
theorem v33_at : val_main_v33 (F := Ideal) x0 x1 (ix2 r k)
    = attn (Xg x0 (groupOf r)) (Wt x1) (headOf k) (inGroup r) (laneOf k) := by
  rw [val_main_v33_apply, idx33, val_main_v32_apply, idx32, val_main_v31_apply, idx31, v30_at]

/-- The result at row `r`, channel `q`. -/
theorem v37_at : val_main_v37 (F := Ideal) x0 x1 x2 x3 (ix2 r q)
    = outRow (Xg x0 (groupOf r)) (Wt x1) (fun k q => x2 (ix2 k q)) (fun q => x3 (ix1 q)) (inGroup r) q := by
  rw [val_main_v37_apply, val_main_v34_apply, val_main_v36_apply, idx36, val_main_v35_apply, idx35, Ideal.addf_def]
  refine congrArg (· + _) (Finset.sum_congr rfl fun k _ => ?_)
  rw [lidx34, ridx34, v33_at]

/-- The host program's result is the specification's, over the whole arrays. -/
theorem ref_eq : val_main_v37 (F := Ideal) x0 x1 x2 x3 = G dvd_whole x0 x1 x2 x3 := by
  funext i
  obtain ⟨r, q, rfl⟩ : ∃ (r : Fin 131072) (q : Fin 256), i = ix2 r q := ⟨i 0, i 1, eq_ix2 i⟩
  rw [v37_at]
  rfl

end Cert.LinAttn.Ref

end
-- ==== Proof.lean ====
/-
  Grouped linear attention between two projections: the kernel against its jnp reference, on the extended reals.

  Both programs send the 131072 rows of `x` through the fused projection `x · qkv_w`, rectify the query and key
  thirds, and, inside each group of 128 consecutive rows and each of the 8 heads of 32 channels, form

      y(j, d) = (∑_c q(j, c) · ∑_j' k(j', c) · v(j', d)) / (∑_c (∑_j' k(j', c)) · q(j, c) + ε),

  lay the heads side by side again and apply `y · proj_w + proj_b` (Proof/LinAttnSpec.lean states this once, as the
  function `G` of the four argument arrays, index by index). They differ in arrangement only. The kernel walks the rows
  in 256 blocks of 512 (four whole groups), cuts the 32 group-and-head pieces of a block out of the projected block by
  slices, and concatenates the results; the reference reshapes the whole projection to [1024 · 8, 128, 32], transposing
  groups against heads, and uses batched products. At the ideal instance a change of float format is the identity, a
  product into a zero accumulator and a reduction started from zero are plain finite sums, and the stabiliser `ε` is
  one and the same binary32 word on both sides, so both results are `G` of the arguments: no law beyond `0 + a = a`
  and reindexing of finite sums is used, and the inputs' finiteness is never opened.

  Proof/HeadRead.lean reads one group-and-head piece at an index; Proof/KerBodyNF.lean, Proof/KerBodyRead.lean and Proof/KerBody.lean show that
  what the body leaves in the output buffer is `G` over the block; Proof/KerValue.lean passes from the 256 blocks to the
  whole array; Proof/RefIdx.lean, Proof/RefQkv.lean and Proof/RefIsSpec.lean show that the reference's result is `G`. The three frames are
  the generated ones (the reference's is its generated run with the result dropped), and the idealization rewrote
  nothing, so `preserves` is `True`.
-/
import proofs.«164440_j56075093017288_1_alg».proof.Defs
import proofs.«164440_j56075093017288_1_alg».proof.Proof.Gen.Kernel
import proofs.«164440_j56075093017288_1_alg».proof.Proof.Gen.Kernel.Skeleton
import proofs.«164440_j56075093017288_1_alg».proof.Proof.Gen.Kernel.Launch
import proofs.«164440_j56075093017288_1_alg».proof.Proof.Gen.Kernel.Points
import proofs.«164440_j56075093017288_1_alg».proof.Proof.Gen.Kernel.Frame
import proofs.«164440_j56075093017288_1_alg».proof.Proof.Gen.KernelIdeal
import proofs.«164440_j56075093017288_1_alg».proof.Proof.Gen.KernelIdeal.Skeleton
import proofs.«164440_j56075093017288_1_alg».proof.Proof.Gen.KernelIdeal.Launch
import proofs.«164440_j56075093017288_1_alg».proof.Proof.Gen.KernelIdeal.Points
import proofs.«164440_j56075093017288_1_alg».proof.Proof.Gen.KernelIdeal.Frame
import proofs.«164440_j56075093017288_1_alg».proof.Proof.Gen.ReferenceIdeal
import proofs.«164440_j56075093017288_1_alg».proof.Proof.Gen.KernelIdeal.Value
import proofs.«164440_j56075093017288_1_alg».proof.Proof.Gen.ReferenceIdeal.Run
import proofs.«164440_j56075093017288_1_alg».proof.Proof.Gen.ReferenceIdeal.Read
import proofs.«164440_j56075093017288_1_alg».proof.Proof.Gen.Pre_finite_inputs
import proofs.«164440_j56075093017288_1_alg».proof.Proof.KerValue
import proofs.«164440_j56075093017288_1_alg».proof.Proof.KerBody
import proofs.«164440_j56075093017288_1_alg».proof.Proof.RefIsSpec
import Idealize.ShloMosaic.Adequacy
import Idealize.ShloMosaic.Init

noncomputable section

namespace Cert.Proof

open Idealize.ShloMosaic Idealize.ShloMosaic.TcCoe Idealize.SL.Sem

/-- From memories that agree on the four arguments both programs end, the kernel's result array and the reference's
    result both at `G` of the arguments: the kernel's by its run block by block (`Blocks.run` over the body's value
    `Ker.out_eq`), the reference's by its run read one operation at a time (`Ref.ref_eq`). -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.LinAttn.Blocks.whole m c, Cert.LinAttn.Blocks.run m ρ Cert.LinAttn.Ker.out_eq, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.LinAttn.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
